-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2112x4224 : S_.BroadcastsInDim S2112x4224 (![] : Fin 0 → Fin S2112x4224.rank)
  reducesTo_S2112x4224_S_d0_1 : S2112x4224.ReducesTo [0, 1] S_
  bcast_S_S2112 : S_.BroadcastsInDim S2112 (![] : Fin 0 → Fin S2112.rank)
  reducesTo_S2112_S_d0 : S2112.ReducesTo [0] S_
  bcast_S_S64x2112 : S_.BroadcastsInDim S64x2112 (![] : Fin 0 → Fin S64x2112.rank)
  reducesTo_S64x2112_S_d0_1 : S64x2112.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg15 : FVec F S4096x64 .f32) (main_arg16 : FVec F S4096 .f32) (main_v63 : IVec S_ 1) (main_v67 : IVec S_ 1) : IVec S_ 1 :=
  let main_v68 : IVec S_ 1 := andi main_v63 main_v67
  let main_v69 : FVec F S4096x64 .f32 := Host.absf main_arg15
  let main_cst_26 : FVec F S_ .f32 := constant S_ .f32 0x7F800000#32
  let main_v70 : FVec F S4096x64 .f32 := broadcastInDim S4096x64 ![] bcast_S_S4096x64 main_cst_26
  let main_v71 : IVec S4096x64 1 := cmpf .olt main_v69 main_v70
  let main_c_27 : IVec S_ 1 := constantI S_ 1 1#1
  let main_v72 : IVec S_ 1 := (fun x v => Host.reduce IntOp.andi x v reducesTo_S4096x64_S_d0_1 h_S_) main_v71 main_c_27
  let main_v73 : IVec S_ 1 := andi main_v68 main_v72
  let main_v74 : FVec F S4096 .f32 := Host.absf main_arg16
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  main_v78

def fn_part3 {F : FTy → Type} [FloatOps F] (main_arg12 : FVec F S192 .f32) (main_arg13 : FVec F S64x64 .f32) (main_arg14 : FVec F S64 .f32) (main_arg15 : FVec F S4096x64 .f32) (main_arg16 : FVec F S4096 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S192 .f32 := Host.absf main_arg12
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x64 .f32 := Host.absf main_arg11
  let main_cst_18 : FVec F S_ .f32 := constant S_ .f32 0x7F800000#32
  let main_v50 : FVec F S192x64 .f32 := broadcastInDim S192x64 ![] bcast_S_S192x64 main_cst_18
  fn_part3 (F := F) main_arg12 main_arg13 main_arg14 main_arg15 main_arg16 main_v48 main_v49 main_v50

def fn_part1 {F : FTy → Type} [FloatOps F] (main_arg5 : FVec F S2112x4224 .f32) (main_arg6 : FVec F S2112 .f32) (main_arg7 : FVec F S64x2112 .f32) (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2112x4224 .f32 := Host.absf main_arg5
  let main_cst_6 : FVec F S_ .f32 := constant S_ .f32 0x7F800000#32
  let main_v20 : FVec F S2112x4224 .f32 := broadcastInDim S2112x4224 ![] bcast_S_S2112x4224 main_cst_6
  let main_v21 : IVec S2112x4224 1 := cmpf .olt main_v19 main_v20
  let main_c_7 : IVec S_ 1 := constantI S_ 1 1#1
  let main_v22 : IVec S_ 1 := (fun x v => Host.reduce IntOp.andi x v reducesTo_S2112x4224_S_d0_1 h_S_) main_v21 main_c_7
  let main_v23 : IVec S_ 1 := andi main_v18 main_v22
  let main_v24 : FVec F S2112 .f32 := Host.absf main_arg6
  let main_cst_8 : FVec F S_ .f32 := constant S_ .f32 0x7F800000#32
  let main_v25 : FVec F S2112 .f32 := broadcastInDim S2112 ![] bcast_S_S2112 main_cst_8
  let main_v26 : IVec S2112 1 := cmpf .olt main_v24 main_v25
  let main_c_9 : IVec S_ 1 := constantI S_ 1 1#1
  let main_v27 : IVec S_ 1 := (fun x v => Host.reduce IntOp.andi x v reducesTo_S2112_S_d0 h_S_) main_v26 main_c_9
  let main_v28 : IVec S_ 1 := andi main_v23 main_v27
  let main_v29 : FVec F S64x2112 .f32 := Host.absf main_arg7
  let main_cst_10 : FVec F S_ .f32 := constant S_ .f32 0x7F800000#32
  let main_v30 : FVec F S64x2112 .f32 := broadcastInDim S64x2112 ![] bcast_S_S64x2112 main_cst_10
  let main_v31 : IVec S64x2112 1 := cmpf .olt main_v29 main_v30
  let main_c_11 : IVec S_ 1 := constantI S_ 1 1#1
  let main_v32 : IVec S_ 1 := (fun x v => Host.reduce IntOp.andi x v reducesTo_S64x2112_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S4096x64 .f32) (main_arg1 : FVec F S4096x4096 .f32) (main_arg2 : IVec S4096x8 32) (main_arg3 : FVec F S64x64 .f32) (main_arg4 : FVec F S64 .f32) (main_arg5 : FVec F S2112x4224 .f32) (main_arg6 : FVec F S2112 .f32) (main_arg7 : FVec F S64x2112 .f32) (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩
abbrev S4096x8x1 : Shape := ⟨3, ![4096, 8, 1]⟩
abbrev S4096x8x64 : Shape := ⟨3, ![4096, 8, 64]⟩
abbrev S1x64 : Shape := ⟨2, ![1, 64]⟩
abbrev S2176x4224 : Shape := ⟨2, ![2176, 4224]⟩
abbrev S2176 : Shape := ⟨1, ![2176]⟩
abbrev S64x2176 : Shape := ⟨2, ![64, 2176]⟩
abbrev S2176x64 : Shape := ⟨2, ![2176, 64]⟩
abbrev S2176x4096 : Shape := ⟨2, ![2176, 4096]⟩
abbrev S4096x2176 : Shape := ⟨2, ![4096, 2176]⟩
abbrev S64x192 : Shape := ⟨2, ![64, 192]⟩
abbrev S64x4096 : Shape := ⟨2, ![64, 4096]⟩
abbrev S1x2176 : Shape := ⟨2, ![1, 2176]⟩
abbrev S1x192 : Shape := ⟨2, ![1, 192]⟩
abbrev S1x4096 : Shape := ⟨2, ![1, 4096]⟩
abbrev S128x64 : Shape := ⟨2, ![128, 64]⟩
abbrev S128x4096 : Shape := ⟨2, ![128, 4096]⟩
abbrev S128x2176 : Shape := ⟨2, ![128, 2176]⟩
abbrev S128x192 : Shape := ⟨2, ![128, 192]⟩

abbrev nBuf : Space → Nat
  | .hbm => 71
  | .vmem => 22
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x8, .i32⟩
  | .hbm, ⟨3, _⟩ => ⟨S64x64, .f32⟩
  | .hbm, ⟨4, _⟩ => ⟨S64, .f32⟩
  | .hbm, ⟨5, _⟩ => ⟨S2112x4224, .f32⟩
  | .hbm, ⟨6, _⟩ => ⟨S2112, .f32⟩
  | .hbm, ⟨7, _⟩ => ⟨S64x2112, .f32⟩
  | .hbm, ⟨8, _⟩ => ⟨S64, .f32⟩
  | .hbm, ⟨9, _⟩ => ⟨S192x64, .f32⟩
  | .hbm, ⟨10, _⟩ => ⟨S192, .f32⟩
  | .hbm, ⟨11, _⟩ => ⟨S192x64, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S4096x64, .f32⟩
  | .hbm, ⟨16, _⟩ => ⟨S4096, .f32⟩
  | .hbm, ⟨17, _⟩ => ⟨S_, .i32⟩
  | .hbm, ⟨18, _⟩ => ⟨S4096x8, .i32⟩
  | .hbm, ⟨19, _⟩ => ⟨S4096x8, .i1⟩
  | .hbm, ⟨20, _⟩ => ⟨S_, .i32⟩
  | .hbm, ⟨21, _⟩ => ⟨S4096x8, .i32⟩
  | .hbm, ⟨22, _⟩ => ⟨S4096x8, .i32⟩
  | .hbm, ⟨23, _⟩ => ⟨S4096x8, .i32⟩
  | .hbm, ⟨24, _⟩ => ⟨S4096x8x1, .i32⟩
  | .hbm, ⟨25, _⟩ => ⟨S4096x8x64, .f32⟩
  | .hbm, ⟨26, _⟩ => ⟨S_, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S64x64, .f32⟩
  | .hbm, ⟨32, _⟩ => ⟨S4096x64, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S_, .i32⟩
  | .hbm, ⟨37, _⟩ => ⟨S_, .f32⟩
  | .hbm, ⟨38, _⟩ => ⟨S2176x4224, .f32⟩
  | .hbm, ⟨39, _⟩ => ⟨S_, .i32⟩
  | .hbm, ⟨40, _⟩ => ⟨S_, .f32⟩
  | .hbm, ⟨41, _⟩ => ⟨S2176, .f32⟩
  | .hbm, ⟨42, _⟩ => ⟨S_, .i32⟩
  | .hbm, ⟨43, _⟩ => ⟨S_, .f32⟩
  | .hbm, ⟨44, _⟩ => ⟨S64x2176, .f32⟩
  | .hbm, ⟨45, _⟩ => ⟨S2176x64, .f32⟩
  | .hbm, ⟨46, _⟩ => ⟨S64x2176, .f32⟩
  | .hbm, ⟨47, _⟩ => ⟨S64x2176, .bf16⟩
  | .hbm, ⟨48, _⟩ => ⟨S2176x4096, .f32⟩
  | .hbm, ⟨49, _⟩ => ⟨S4096x2176, .f32⟩
  | .hbm, ⟨50, _⟩ => ⟨S4096x2176, .bf16⟩
  | .hbm, ⟨51, _⟩ => ⟨S2176x64, .f32⟩
  | .hbm, ⟨52, _⟩ => ⟨S64x2176, .f32⟩
  | .hbm, ⟨53, _⟩ => ⟨S64x2176, .bf16⟩
  | .hbm, ⟨54, _⟩ => ⟨S2176x64, .f32⟩
  | .hbm, ⟨55, _⟩ => ⟨S2176x64, .bf16⟩
  | .hbm, ⟨56, _⟩ => ⟨S64x192, .f32⟩
  | .hbm, ⟨57, _⟩ => ⟨S64x192, .bf16⟩
  | .hbm, ⟨58, _⟩ => ⟨S64x192, .f32⟩
  | .hbm, ⟨59, _⟩ => ⟨S64x192, .bf16⟩
  | .hbm, ⟨60, _⟩ => ⟨S64x64, .f32⟩
  | .hbm, ⟨61, _⟩ => ⟨S64x64, .bf16⟩
  | .hbm, ⟨62, _⟩ => ⟨S64x4096, .f32⟩
  | .hbm, ⟨63, _⟩ => ⟨S64x4096, .bf16⟩
  | .hbm, ⟨64, _⟩ => ⟨S1x2176, .f32⟩
  | .hbm, ⟨65, _⟩ => ⟨S1x64, .f32⟩
  | .hbm, ⟨66, _⟩ => ⟨S1x192, .f32⟩
  | .hbm, ⟨67, _⟩ => ⟨S1x192, .f32⟩
  | .hbm, ⟨68, _⟩ => ⟨S1x64, .f32⟩
  | .hbm, ⟨69, _⟩ => ⟨S1x4096, .f32⟩
  | .hbm, ⟨70, _⟩ => ⟨S4096x4096, .f32⟩
  | .local _ .vmem, ⟨0, _⟩ => ⟨S128x64, .f32⟩
  | .local _ .vmem, ⟨1, _⟩ => ⟨S128x64, .f32⟩
  | .local _ .vmem, ⟨2, _⟩ => ⟨S128x4096, .f32⟩
  | .local _ .vmem, ⟨3, _⟩ => ⟨S128x4096, .f32⟩
  | .local _ .vmem, ⟨4, _⟩ => ⟨S128x64, .f32⟩
  | .local _ .vmem, ⟨5, _⟩ => ⟨S128x64, .f32⟩
  | .local _ .vmem, ⟨6, _⟩ => ⟨S64x2176, .bf16⟩
  | .local _ .vmem, ⟨7, _⟩ => ⟨S4096x2176, .bf16⟩
  | .local _ .vmem, ⟨8, _⟩ => ⟨S64x2176, .bf16⟩
  | .local _ .vmem, ⟨9, _⟩ => ⟨S1x2176, .f32⟩
  | .local _ .vmem, ⟨10, _⟩ => ⟨S2176x64, .bf16⟩
  | .local _ .vmem, ⟨11, _⟩ => ⟨S1x64, .f32⟩
  | .local _ .vmem, ⟨12, _⟩ => ⟨S64x192, .bf16⟩
  | .local _ .vmem, ⟨13, _⟩ => ⟨S1x192, .f32⟩
  | .local _ .vmem, ⟨14, _⟩ => ⟨S64x192, .bf16⟩
  | .local _ .vmem, ⟨15, _⟩ => ⟨S1x192, .f32⟩
  | .local _ .vmem, ⟨16, _⟩ => ⟨S64x64, .bf16⟩
  | .local _ .vmem, ⟨17, _⟩ => ⟨S1x64, .f32⟩
  | .local _ .vmem, ⟨18, _⟩ => ⟨S64x4096, .bf16⟩
  | .local _ .vmem, ⟨19, _⟩ => ⟨S1x4096, .f32⟩
  | .local _ .vmem, ⟨20, _⟩ => ⟨S128x4096, .f32⟩
  | .local _ .vmem, ⟨21, _⟩ => ⟨S128x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_call0_v0 : Ref sig .tc := ⟨.hbm, 37, rfl⟩
abbrev main_v15 : Ref sig .tc := ⟨.hbm, 38, rfl⟩
abbrev main_c_3 : Ref sig .tc := ⟨.hbm, 39, rfl⟩
abbrev main_call1_v0 : Ref sig .tc := ⟨.hbm, 40, rfl⟩
abbrev main_v16 : Ref sig .tc := ⟨.hbm, 41, rfl⟩
abbrev main_c_4 : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2176x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  reducesTo_S4096x8x64_S4096x64_d1 : S4096x8x64.ReducesTo [1] S4096x64
  h_S_ : 0 < S_.numel
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  pads_S2112x4224_S2176x4224_0640_000 : S2112x4224.Pads (![0, 0] : Fin 2 → Nat) ![64, 0] ![0, 0] S2176x4224
  pads_S2112_S2176_0640 : S2112.Pads (![0] : Fin 1 → Nat) ![64] ![0] S2176
  pads_S64x2112_S64x2176_000_0640 : S64x2112.Pads (![0, 0] : Fin 2 → Nat) ![0, 64] ![0, 0] S64x2176
  slices_S2176x4224_S2176x64_0_0 : S2176x4224.Slices ![0, 0] S2176x64
  transposes_S2176x64_S64x2176_1_0 : S2176x64.Transposes [1, 0] S64x2176
  bitsLt_bf16_f32 : FTy.bits .bf16 < FTy.bits .f32
  slices_S2176x4224_S2176x4096_0_64 : S2176x4224.Slices ![0, 64] S2176x4096
  transposes_S2176x4096_S4096x2176_1_0 : S2176x4096.Transposes [1, 0] S4096x2176
  slices_S2176x4224_S2176x64_0_4160 : S2176x4224.Slices ![0, 4160] S2176x64
  transposes_S64x2176_S2176x64_1_0 : S64x2176.Transposes [1, 0] S2176x64
  transposes_S192x64_S64x192_1_0 : S192x64.Transposes [1, 0] S64x192
  transposes_S4096x64_S64x4096_1_0 : S4096x64.Transposes [1, 0] S64x4096
  shapeCasts_S2176_S1x2176 : S2176.ShapeCasts S1x2176
  shapeCasts_S64_S1x64 : S64.ShapeCasts S1x64
  shapeCasts_S192_S1x192 : S192.ShapeCasts S1x192
  shapeCasts_S4096_S1x4096 : S4096.ShapeCasts S1x4096
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x4096_S128x4096_0_0 : ∀ a, (![0, 0] : Fin 2 → Nat) a + S128x4096.size a ≤ S128x4096.size a
  h_S128x4096 : 0 < S128x4096.numel
  inb_S64x2176_S64x2176_0_0 : ∀ a, (![0, 0] : Fin 2 → Nat) a + S64x2176.size a ≤ S64x2176.size a
  h_S64x2176 : 0 < S64x2176.numel
  shapeCasts_S64x2176_S64x2176 : S64x2176.ShapeCasts S64x2176
  inb_S4096x2176_S4096x2176_0_0 : ∀ a, (![0, 0] : Fin 2 → Nat) a + S4096x2176.size a ≤ S4096x2176.size a
  h_S4096x2176 : 0 < S4096x2176.numel
  shapeCasts_S4096x2176_S4096x2176 : S4096x2176.ShapeCasts S4096x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S128x2176 : S1x2176.Broadcasts S128x2176
  inb_S2176x64_S2176x64_0_0 : ∀ a, (![0, 0] : Fin 2 → Nat) a + S2176x64.size a ≤ S2176x64.size a
  h_S2176x64 : 0 < S2176x64.numel
  shapeCasts_S2176x64_S2176x64 : S2176x64.ShapeCasts S2176x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S128x192 : S1x192.Broadcasts S128x192
  slices_S128x192_o0_0_S128x64 : S128x192.Slices ![0, 0] S128x64
  slices_S128x192_o0_64_S128x64 : S128x192.Slices ![0, 64] S128x64
  slices_S128x192_o0_128_S128x64 : S128x192.Slices ![0, 128] S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  gather_S4096x64_S4096x8x1_S4096x8x64_2_0_n_n_0_2_164_wf : GatherDims.WF S4096x64 S4096x8x1 S4096x8x64 [2] [0] [] [0] [] 2 ![1, 64]
  dot_S4096x64_S64x64_S4096x64_1_0_0_1_n_n_wf : DotDims.WF S4096x64 S64x64 S4096x64 [1] [0] [0] [1] [] []
  dot_S128x64_S64x2176_S128x2176_1_0_0_1_n_n_wf : DotDims.WF S128x64 S64x2176 S128x2176 [1] [0] [0] [1] [] []
  dot_S128x4096_S4096x2176_S128x2176_1_0_0_1_n_n_wf : DotDims.WF S128x4096 S4096x2176 S128x2176 [1] [0] [0] [1] [] []
  dot_S128x2176_S2176x64_S128x64_1_0_0_1_n_n_wf : DotDims.WF S128x2176 S2176x64 S128x64 [1] [0] [0] [1] [] []
  dot_S128x64_S64x192_S128x192_1_0_0_1_n_n_wf : DotDims.WF S128x64 S64x192 S128x192 [1] [0] [0] [1] [] []
  dot_S128x64_S64x64_S128x64_1_0_0_1_n_n_wf : DotDims.WF S128x64 S64x64 S128x64 [1] [0] [0] [1] [] []
  dot_S128x64_S64x4096_S128x4096_1_0_0_1_n_n_wf : DotDims.WF S128x64 S64x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S4096x64.size a
  hwx0_0 : ∀ i : grid0.Coords, EltTy.bits .f32 = 32 ∨ (Rect.block (s := S4096x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2176.size a ≤ S64x2176.size a
  hwx0_3 : ∀ i : grid0.Coords, EltTy.bits .bf16 = 32 ∨ (Rect.block (s := S64x2176) S64x2176.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2176.size a ≤ S4096x2176.size a
  hwx0_4 : ∀ i : grid0.Coords, EltTy.bits .bf16 = 32 ∨ (Rect.block (s := S4096x2176) S4096x2176.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2176.size a ≤ S64x2176.size a
  hwx0_5 : ∀ i : grid0.Coords, EltTy.bits .bf16 = 32 ∨ (Rect.block (s := S64x2176) S64x2176.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2176.size a ≤ S1x2176.size a
  hwx0_6 : ∀ i : grid0.Coords, EltTy.bits .f32 = 32 ∨ (Rect.block (s := S1x2176) S1x2176.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2176x64.size a ≤ S2176x64.size a
  hwx0_7 : ∀ i : grid0.Coords, EltTy.bits .bf16 = 32 ∨ (Rect.block (s := S2176x64) S2176x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x192.size a ≤ S64x192.size a
  hwx0_9 : ∀ i : grid0.Coords, EltTy.bits .bf16 = 32 ∨ (Rect.block (s := S64x192) S64x192.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x192.size a ≤ S1x192.size a
  hwx0_10 : ∀ i : grid0.Coords, EltTy.bits .f32 = 32 ∨ (Rect.block (s := S1x192) S1x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x192.size a ≤ S64x192.size a
  hwx0_11 : ∀ i : grid0.Coords, EltTy.bits .bf16 = 32 ∨ (Rect.block (s := S64x192) S64x192.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x192.size a ≤ S1x192.size a
  hwx0_12 : ∀ i : grid0.Coords, EltTy.bits .f32 = 32 ∨ (Rect.block (s := S1x192) S1x192.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .bf16 = 32 ∨ (Rect.block (s := S64x64) S64x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x4096.size a ≤ S64x4096.size a
  hwx0_15 : ∀ i : grid0.Coords, EltTy.bits .bf16 = 32 ∨ (Rect.block (s := S64x4096) S64x4096.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x4096.size a ≤ S1x4096.size a
  hwx0_16 : ∀ i : grid0.Coords, EltTy.bits .f32 = 32 ∨ (Rect.block (s := S1x4096) S1x4096.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x4096.size a ≤ S4096x4096.size a
  hwx0_17 : ∀ i : grid0.Coords, EltTy.bits .f32 = 32 ∨ (Rect.block (s := S4096x4096) S128x4096.size (cc0_transform_17 i) (hinb0_17 i)).WholeWords (EltTy.packing .f32)

variable [Facts₀]

def gather_S4096x64_S4096x8x1_S4096x8x64_2_0_n_n_0_2_164 : GatherDims S4096x64 S4096x8x1 S4096x8x64 where
  offsetDims := [2]
  collapsedSliceDims := [0]
  operandBatchingDims := []
  startIndicesBatchingDims := []
  startIndexMap := [0]
  indexVectorDim := 2
  sliceSizes := ![1, 64]
  wf := gather_S4096x64_S4096x8x1_S4096x8x64_2_0_n_n_0_2_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S128x64_S64x2176_S128x2176_1_0_0_1_n_n : DotDims S128x64 S64x2176 S128x2176 where
  lhsContracting := [1]
  rhsContracting := [0]
  lhsNonContracting := [0]
  rhsNonContracting := [1]
  lhsBatch := []
  rhsBatch := []
  wf := dot_S128x64_S64x2176_S128x2176_1_0_0_1_n_n_wf
def dot_S128x4096_S4096x2176_S128x2176_1_0_0_1_n_n : DotDims S128x4096 S4096x2176 S128x2176 where
  lhsContracting := [1]
  rhsContracting := [0]
  lhsNonContracting := [0]
  rhsNonContracting := [1]
  lhsBatch := []
  rhsBatch := []
  wf := dot_S128x4096_S4096x2176_S128x2176_1_0_0_1_n_n_wf
def dot_S128x2176_S2176x64_S128x64_1_0_0_1_n_n : DotDims S128x2176 S2176x64 S128x64 where
  lhsContracting := [1]
  rhsContracting := [0]
  lhsNonContracting := [0]
  rhsNonContracting := [1]
  lhsBatch := []
  rhsBatch := []
  wf := dot_S128x2176_S2176x64_S128x64_1_0_0_1_n_n_wf
def dot_S128x64_S64x192_S128x192_1_0_0_1_n_n : DotDims S128x64 S64x192 S128x192 where
  lhsContracting := [1]
  rhsContracting := [0]
  lhsNonContracting := [0]
  rhsNonContracting := [1]
  lhsBatch := []
  rhsBatch := []
  wf := dot_S128x64_S64x192_S128x192_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x2176.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4096x2176.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x2176.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x2176.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2176x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S64x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S64x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x192.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36) S64x4096.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v42) S1x4096.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v43) S128x4096.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩
abbrev S4096x8x1 : Shape := ⟨3, ![4096, 8, 1]⟩
abbrev S4096x8x64 : Shape := ⟨3, ![4096, 8, 64]⟩
abbrev S1x64 : Shape := ⟨2, ![1, 64]⟩
abbrev S4096x4224 : Shape := ⟨2, ![4096, 4224]⟩
abbrev S4224x2112 : Shape := ⟨2, ![4224, 2112]⟩
abbrev S4096x2112 : Shape := ⟨2, ![4096, 2112]⟩
abbrev S1x2112 : Shape := ⟨2, ![1, 2112]⟩
abbrev S2112x64 : Shape := ⟨2, ![2112, 64]⟩
abbrev S64x192 : Shape := ⟨2, ![64, 192]⟩
abbrev S4096x192 : Shape := ⟨2, ![4096, 192]⟩
abbrev S1x192 : Shape := ⟨2, ![1, 192]⟩
abbrev S64x4096 : Shape := ⟨2, ![64, 4096]⟩
abbrev S1x4096 : Shape := ⟨2, ![1, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x8, .i32⟩
  | .hbm, ⟨3, _⟩ => ⟨S64x64, .f32⟩
  | .hbm, ⟨4, _⟩ => ⟨S64, .f32⟩
  | .hbm, ⟨5, _⟩ => ⟨S2112x4224, .f32⟩
  | .hbm, ⟨6, _⟩ => ⟨S2112, .f32⟩
  | .hbm, ⟨7, _⟩ => ⟨S64x2112, .f32⟩
  | .hbm, ⟨8, _⟩ => ⟨S64, .f32⟩
  | .hbm, ⟨9, _⟩ => ⟨S192x64, .f32⟩
  | .hbm, ⟨10, _⟩ => ⟨S192, .f32⟩
  | .hbm, ⟨11, _⟩ => ⟨S192x64, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S4096x64, .f32⟩
  | .hbm, ⟨16, _⟩ => ⟨S4096, .f32⟩
  | .hbm, ⟨17, _⟩ => ⟨S_, .i32⟩
  | .hbm, ⟨18, _⟩ => ⟨S4096x8, .i32⟩
  | .hbm, ⟨19, _⟩ => ⟨S4096x8, .i1⟩
  | .hbm, ⟨20, _⟩ => ⟨S_, .i32⟩
  | .hbm, ⟨21, _⟩ => ⟨S4096x8, .i32⟩
  | .hbm, ⟨22, _⟩ => ⟨S4096x8, .i32⟩
  | .hbm, ⟨23, _⟩ => ⟨S4096x8, .i32⟩
  | .hbm, ⟨24, _⟩ => ⟨S4096x8x1, .i32⟩
  | .hbm, ⟨25, _⟩ => ⟨S4096x8x64, .f32⟩
  | .hbm, ⟨26, _⟩ => ⟨S_, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S64x64, .f32⟩
  | .hbm, ⟨32, _⟩ => ⟨S4096x64, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S4096x4224, .f32⟩
  | .hbm, ⟨37, _⟩ => ⟨S4224x2112, .f32⟩
  | .hbm, ⟨38, _⟩ => ⟨S4096x2112, .f32⟩
  | .hbm, ⟨39, _⟩ => ⟨S1x2112, .f32⟩
  | .hbm, ⟨40, _⟩ => ⟨S4096x2112, .f32⟩
  | .hbm, ⟨41, _⟩ => ⟨S4096x2112, .f32⟩
  | .hbm, ⟨42, _⟩ => ⟨S_, .f32⟩
  | .hbm, ⟨43, _⟩ => ⟨S4096x2112, .f32⟩
  | .hbm, ⟨44, _⟩ => ⟨S4096x2112, .f32⟩
  | .hbm, ⟨45, _⟩ => ⟨S2112x64, .f32⟩
  | .hbm, ⟨46, _⟩ => ⟨S4096x64, .f32⟩
  | .hbm, ⟨47, _⟩ => ⟨S1x64, .f32⟩
  | .hbm, ⟨48, _⟩ => ⟨S4096x64, .f32⟩
  | .hbm, ⟨49, _⟩ => ⟨S4096x64, .f32⟩
  | .hbm, ⟨50, _⟩ => ⟨S64x192, .f32⟩
  | .hbm, ⟨51, _⟩ => ⟨S4096x192, .f32⟩
  | .hbm, ⟨52, _⟩ => ⟨S1x192, .f32⟩
  | .hbm, ⟨53, _⟩ => ⟨S4096x192, .f32⟩
  | .hbm, ⟨54, _⟩ => ⟨S4096x192, .f32⟩
  | .hbm, ⟨55, _⟩ => ⟨S64x192, .f32⟩
  | .hbm, ⟨56, _⟩ => ⟨S4096x192, .f32⟩
  | .hbm, ⟨57, _⟩ => ⟨S1x192, .f32⟩
  | .hbm, ⟨58, _⟩ => ⟨S4096x192, .f32⟩
  | .hbm, ⟨59, _⟩ => ⟨S4096x192, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S_, .f32⟩
  | .hbm, ⟨70, _⟩ => ⟨S4096x64, .f32⟩
  | .hbm, ⟨71, _⟩ => ⟨S4096x64, .f32⟩
  | .hbm, ⟨72, _⟩ => ⟨S_, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096x64, .f32⟩
  | .hbm, ⟨89, _⟩ => ⟨S4096x64, .f32⟩
  | .hbm, ⟨90, _⟩ => ⟨S4096x64, .f32⟩
  | .hbm, ⟨91, _⟩ => ⟨S4096x64, .f32⟩
  | .hbm, ⟨92, _⟩ => ⟨S4096x64, .f32⟩
  | .hbm, ⟨93, _⟩ => ⟨S64x64, .f32⟩
  | .hbm, ⟨94, _⟩ => ⟨S4096x64, .f32⟩
  | .hbm, ⟨95, _⟩ => ⟨S1x64, .f32⟩
  | .hbm, ⟨96, _⟩ => ⟨S4096x64, .f32⟩
  | .hbm, ⟨97, _⟩ => ⟨S4096x64, .f32⟩
  | .hbm, ⟨98, _⟩ => ⟨S_, .f32⟩
  | .hbm, ⟨99, _⟩ => ⟨S4096x64, .f32⟩
  | .hbm, ⟨100, _⟩ => ⟨S4096x64, .f32⟩
  | .hbm, ⟨101, _⟩ => ⟨S64x4096, .f32⟩
  | .hbm, ⟨102, _⟩ => ⟨S4096x4096, .f32⟩
  | .hbm, ⟨103, _⟩ => ⟨S1x4096, .f32⟩
  | .hbm, ⟨104, _⟩ => ⟨S4096x4096, .f32⟩
  | .hbm, ⟨105, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_2 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_6 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  reducesTo_S4096x8x64_S4096x64_d1 : S4096x8x64.ReducesTo [1] S4096x64
  h_S_ : 0 < S_.numel
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x4096_S4096x64_S4096x4224_d1 : Shape.Concatenates [S4096x64, S4096x4096, S4096x64] S4096x4224 1
  transposes_S2112x4224_S4224x2112_1_0 : S2112x4224.Transposes [1, 0] S4224x2112
  bcast_S2112_S1x2112_1 : S2112.BroadcastsInDim S1x2112 (![1] : Fin 1 → Fin S1x2112.rank)
  bcast_S1x2112_S4096x2112_0_1 : S1x2112.BroadcastsInDim S4096x2112 (![0, 1] : Fin 2 → Fin S4096x2112.rank)
  bcast_S_S4096x2112 : S_.BroadcastsInDim S4096x2112 (![] : Fin 0 → Fin S4096x2112.rank)
  transposes_S64x2112_S2112x64_1_0 : S64x2112.Transposes [1, 0] S2112x64
  transposes_S192x64_S64x192_1_0 : S192x64.Transposes [1, 0] S64x192
  bcast_S192_S1x192_1 : S192.BroadcastsInDim S1x192 (![1] : Fin 1 → Fin S1x192.rank)
  bcast_S1x192_S4096x192_0_1 : S1x192.BroadcastsInDim S4096x192 (![0, 1] : Fin 2 → Fin S4096x192.rank)
  slices_S4096x192_S4096x64_0_0 : S4096x192.Slices ![0, 0] S4096x64
  slices_S4096x192_S4096x64_0_64 : S4096x192.Slices ![0, 64] S4096x64
  slices_S4096x192_S4096x64_0_128 : S4096x192.Slices ![0, 128] S4096x64
  transposes_S4096x64_S64x4096_1_0 : S4096x64.Transposes [1, 0] S64x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096x64_S4096x8x1_S4096x8x64_2_0_n_n_0_2_164_wf : GatherDims.WF S4096x64 S4096x8x1 S4096x8x64 [2] [0] [] [0] [] 2 ![1, 64]
  dot_S4096x64_S64x64_S4096x64_1_0_0_1_n_n_wf : DotDims.WF S4096x64 S64x64 S4096x64 [1] [0] [0] [1] [] []
  dot_S4096x4224_S4224x2112_S4096x2112_1_0_0_1_n_n_wf : DotDims.WF S4096x4224 S4224x2112 S4096x2112 [1] [0] [0] [1] [] []
  dot_S4096x2112_S2112x64_S4096x64_1_0_0_1_n_n_wf : DotDims.WF S4096x2112 S2112x64 S4096x64 [1] [0] [0] [1] [] []
  dot_S4096x64_S64x192_S4096x192_1_0_0_1_n_n_wf : DotDims.WF S4096x64 S64x192 S4096x192 [1] [0] [0] [1] [] []
  dot_S4096x64_S64x4096_S4096x4096_1_0_0_1_n_n_wf : DotDims.WF S4096x64 S64x4096 S4096x4096 [1] [0] [0] [1] [] []

variable [Facts₀]

def gather_S4096x64_S4096x8x1_S4096x8x64_2_0_n_n_0_2_164 : GatherDims S4096x64 S4096x8x1 S4096x8x64 where
  offsetDims := [2]
  collapsedSliceDims := [0]
  operandBatchingDims := []
  startIndicesBatchingDims := []
  startIndexMap := [0]
  indexVectorDim := 2
  sliceSizes := ![1, 64]
  wf := gather_S4096x64_S4096x8x1_S4096x8x64_2_0_n_n_0_2_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4224_S4224x2112_S4096x2112_1_0_0_1_n_n : DotDims S4096x4224 S4224x2112 S4096x2112 where
  lhsContracting := [1]
  rhsContracting := [0]
  lhsNonContracting := [0]
  rhsNonContracting := [1]
  lhsBatch := []
  rhsBatch := []
  wf := dot_S4096x4224_S4224x2112_S4096x2112_1_0_0_1_n_n_wf
def dot_S4096x2112_S2112x64_S4096x64_1_0_0_1_n_n : DotDims S4096x2112 S2112x64 S4096x64 where
  lhsContracting := [1]
  rhsContracting := [0]
  lhsNonContracting := [0]
  rhsNonContracting := [1]
  lhsBatch := []
  rhsBatch := []
  wf := dot_S4096x2112_S2112x64_S4096x64_1_0_0_1_n_n_wf
def dot_S4096x64_S64x192_S4096x192_1_0_0_1_n_n : DotDims S4096x64 S64x192 S4096x192 where
  lhsContracting := [1]
  rhsContracting := [0]
  lhsNonContracting := [0]
  rhsNonContracting := [1]
  lhsBatch := []
  rhsBatch := []
  wf := dot_S4096x64_S64x192_S4096x192_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  One round of message passing over 4096 nodes, as ONE function of the argument arrays, entry by entry, on the
  extended reals.

  For node i: the raw message is the row (mem i | od i | rw i) of width 64 + 4096 + 64 = 4224, where rw is the pooled
  walk embedding; the hidden layer is relu(raw · W1ᵀ + b1) of width 2112, written here with the product over the raw
  row already split into its three stretches of columns (0..63, 4160..4223, 64..4159, added in that order); the message
  is hidden · W2ᵀ + b2; the two gate pre-activations are gi = msg · Wiᵀ + bi and gh = mem · Whᵀ + bh, each of width
  192 = 3 · 64, cut into thirds (reset, update, candidate); the updated memory is (1 − z) · n + z · mem with
  r = σ(gi₀ + gh₀), z = σ(gi₁ + gh₁), n = tanh(gi₂ + r · gh₂); and the result row is relu(upd · Wp1ᵀ + bp1) · Wp2ᵀ + bp2.

  Also here: a row of 2112 entries continued by zeros to 2176 entries (`padded`), the law that a sum of products
  against such a row is the sum over the first 2112 entries, and the law that cuts a sum over 4224 columns into its
  three stretches. Both laws hold in any commutative additive monoid / the extended reals with no finiteness needed:
  only x · 0 = 0 and the re-grouping of a finite sum are used.
-/
import Idealize.ShloMosaic.PureOps.Ideal
import Idealize.ShloMosaic.Lib.ValueIdx

noncomputable section

open scoped BigOperators

namespace Cert.Layer

open Idealize.ShloMosaic Idealize.ShloMosaic.ValueIdx

/-- A matrix of extended reals with a rows and b columns. -/
abbrev Mat (a b : Nat) := (⟨2, ![a, b]⟩ : Shape).Idx → EReal
/-- A list of a extended reals. -/
abbrev Row (a : Nat) := (⟨1, ![a]⟩ : Shape).Idx → EReal

/-- The arrays the layer is a function of: the node memories, the OD matrix, the pooled walk embedding, and the
    weights and biases of the message MLP, the gated update and the prediction MLP. -/
structure Args where
  mem : Mat 4096 64
  od : Mat 4096 4096
  rw : Mat 4096 64
  W1 : Mat 2112 4224
  b1 : Row 2112
  W2 : Mat 64 2112
  b2 : Row 64
  Wi : Mat 192 64
  bi : Row 192
  Wh : Mat 192 64
  bh : Row 192
  Wp1 : Mat 64 64
  bp1 : Row 64
  Wp2 : Mat 4096 64
  bp2 : Row 4096

/-- The float zero and the float one, as the words both programs print. -/
abbrev zeroW : EReal := Ideal.ofBits .f32 0x00000000#32
abbrev oneW : EReal := Ideal.ofBits .f32 0x3F800000#32

variable (A : Args)

/-- Hidden unit h of node i, before the relu: the raw row times row h of W1, the three stretches of columns summed
    separately (memory columns, walk columns, OD columns), plus the bias. -/
def pre (i : Fin 4096) (h : Fin 2112) : EReal :=
  (((∑ k : Fin 64, A.mem (ix2 i k) * A.W1 (ix2 h ⟨k.val, by omega⟩))
      + (∑ k : Fin 64, A.rw (ix2 i k) * A.W1 (ix2 h ⟨4160 + k.val, by omega⟩)))
    + (∑ k : Fin 4096, A.od (ix2 i k) * A.W1 (ix2 h ⟨64 + k.val, by omega⟩)))
  + A.b1 (ix1 h)

/-- Hidden unit h of node i. -/
def hidden (i : Fin 4096) (h : Fin 2112) : EReal := max (pre A i h) zeroW

/-- Entry j of node i's message. -/
def msg (i : Fin 4096) (j : Fin 64) : EReal := (∑ h : Fin 2112, hidden A i h * A.W2 (ix2 j h)) + A.b2 (ix1 j)

/-- The input-side gate pre-activations of node i. -/
def gi (i : Fin 4096) (g : Fin 192) : EReal := (∑ j : Fin 64, msg A i j * A.Wi (ix2 g j)) + A.bi (ix1 g)

/-- The memory-side gate pre-activations of node i. -/
def gh (i : Fin 4096) (g : Fin 192) : EReal := (∑ j : Fin 64, A.mem (ix2 i j) * A.Wh (ix2 g j)) + A.bh (ix1 g)

/-- The reset gate. -/
def rgate (i : Fin 4096) (d : Fin 64) : EReal :=
  Ideal.logistic (gi A i ⟨d.val, by omega⟩ + gh A i ⟨d.val, by omega⟩)

/-- The update gate. -/
def zgate (i : Fin 4096) (d : Fin 64) : EReal :=
  Ideal.logistic (gi A i ⟨64 + d.val, by omega⟩ + gh A i ⟨64 + d.val, by omega⟩)

/-- The candidate memory. -/
def cand (i : Fin 4096) (d : Fin 64) : EReal :=
  Ideal.tanh (gi A i ⟨128 + d.val, by omega⟩ + rgate A i d * gh A i ⟨128 + d.val, by omega⟩)

/-- The updated memory of node i. -/
def upd (i : Fin 4096) (d : Fin 64) : EReal :=
  (oneW - zgate A i d) * cand A i d + zgate A i d * A.mem (ix2 i d)

/-- The prediction layer's hidden unit e of node i. -/
def pred (i : Fin 4096) (e : Fin 64) : EReal :=
  max ((∑ d : Fin 64, upd A i d * A.Wp1 (ix2 e d)) + A.bp1 (ix1 e)) zeroW

/-- Entry (i, j) of the result. -/
def out (i j : Fin 4096) : EReal := (∑ e : Fin 64, pred A i e * A.Wp2 (ix2 j e)) + A.bp2 (ix1 j)

/-- The whole result array. -/
def G : Mat 4096 4096 := fun idx => out A (idx 0) (idx 1)

theorem G_ix2 (i j : Fin 4096) : G A (ix2 i j) = out A i j := rfl

/-! ## A row continued by zeros, and the two sum laws -/

/-- A list of 2112 entries continued by zeros to 2176 entries. -/
def padded (f : Fin 2112 → EReal) (h : Fin 2176) : EReal := if hh : h.val < 2112 then f ⟨h.val, hh⟩ else 0

theorem padded_lt (f : Fin 2112 → EReal) (h : Fin 2176) (hh : h.val < 2112) : padded f h = f ⟨h.val, hh⟩ :=
  dif_pos hh

theorem padded_ge (f : Fin 2112 → EReal) (h : Fin 2176) (hh : ¬ h.val < 2112) : padded f h = 0 := dif_neg hh

theorem padded_castLE (f : Fin 2112 → EReal) (h : Fin 2112) :
    padded f (Fin.castLE (by omega) h) = f h := by
  rw [padded_lt f _ (by simp [Fin.castLE])]
  rfl

/-- A sum over 2176 positions whose terms vanish from position 2112 on is the sum over the first 2112 positions. -/
theorem sum_2176_of_zero_tail {M : Type*} [AddCommMonoid M] (F : Fin 2176 → M)
    (hz : ∀ h : Fin 2176, ¬ h.val < 2112 → F h = 0) :
    ∑ h : Fin 2176, F h = ∑ h : Fin 2112, F (Fin.castLE (by omega) h) := by
  have e : ∑ h : Fin (2112 + 64), F (Fin.cast (by omega) h)
      = ∑ h : Fin 2112, F (Fin.cast (by omega) (Fin.castAdd 64 h))
        + ∑ h : Fin 64, F (Fin.cast (by omega) (Fin.natAdd 2112 h)) := Fin.sum_univ_add _
  have e0 : ∑ h : Fin 64, F (Fin.cast (by omega) (Fin.natAdd 2112 h)) = 0 :=
    Finset.sum_eq_zero fun h _ => hz _ (by simp [Fin.cast, Fin.natAdd])
  have e1 : ∑ h : Fin (2112 + 64), F (Fin.cast (by omega) h) = ∑ h : Fin 2176, F h :=
    Fintype.sum_equiv (finCongr (by omega)) _ _ fun _ => rfl
  rw [← e1, e, e0, add_zero]
  exact Finset.sum_congr rfl fun h _ => congrArg F (Fin.ext rfl)

/-- A sum of products against a row continued by zeros is the sum over the row's own 2112 entries. -/
theorem sum_mul_padded (g : Fin 2176 → EReal) (f : Fin 2112 → EReal) :
    ∑ h : Fin 2176, g h * padded f h = ∑ h : Fin 2112, g (Fin.castLE (by omega) h) * f h := by
  rw [sum_2176_of_zero_tail (fun h => g h * padded f h) (fun h hh => by rw [padded_ge f h hh, mul_zero])]
  exact Finset.sum_congr rfl fun h _ => by rw [padded_castLE]

/-- A sum over the 4224 columns of a raw row, cut into the memory columns 0..63, the OD columns 64..4159 and the walk
    columns 4160..4223. -/
theorem sum_4224_split {M : Type*} [AddCommMonoid M] (F : Fin 4224 → M) :
    ∑ k : Fin 4224, F k
      = ((∑ k : Fin 64, F ⟨k.val, by omega⟩) + (∑ k : Fin 64, F ⟨4160 + k.val, by omega⟩))
        + (∑ k : Fin 4096, F ⟨64 + k.val, by omega⟩) := by
  have e1 : ∑ k : Fin (64 + 4096 + 64), F (Fin.cast (by omega) k) = ∑ k : Fin 4224, F k :=
    Fintype.sum_equiv (finCongr (by omega)) _ _ fun _ => rfl
  rw [← e1, Fin.sum_univ_add, Fin.sum_univ_add, add_right_comm]
  refine congrArg₂ (· + ·) (congrArg₂ (· + ·) ?_ ?_) ?_
  · exact Finset.sum_congr rfl fun k _ => congrArg F (Fin.ext rfl)
  · exact Finset.sum_congr rfl fun k _ => congrArg F (Fin.ext (by simp [Fin.cast, Fin.natAdd]))
  · exact Finset.sum_congr rfl fun k _ => congrArg F (Fin.ext (by simp [Fin.cast, Fin.natAdd, Fin.castAdd]))

end Cert.Layer

end
-- ==== Proof.KArgs.lean ====
/-
  The layer's arguments as each program's memory holds them on a core: the argument arrays as launched, and for the
  pooled walk embedding the value both programs compute for it on the host by the same operations (gather the walks'
  memory rows, mean over the walk, project by W_rw, add b_rw), named here by the reference's stage for it.
-/
import proofs.«174440_j58033598104174_2_alg».proof.KernelIdeal
import proofs.«174440_j58033598104174_2_alg».proof.ReferenceIdeal
import proofs.«174440_j58033598104174_2_alg».proof.Proof.Gen.ReferenceIdeal.Read
import proofs.«174440_j58033598104174_2_alg».proof.Proof.Spec

noncomputable section

namespace Cert.Layer

open Idealize.ShloMosaic Idealize.ShloMosaic.TcCoe Idealize.SL.Sem

/-- The pooled walk embedding as a function of the memories, the walks, W_rw and b_rw. -/
abbrev walkEmb (mem : Mat 4096 64) (walks : (⟨2, ![4096, 8]⟩ : Shape).Idx → BitVec 32) (Wrw : Mat 64 64) (brw : Row 64) :
    Mat 4096 64 :=
  Cert.ReferenceIdeal.Read.val_main_v14 (F := Ideal) mem walks Wrw brw

section Kernel
open Cert.KernelIdeal

/-- The layer's arguments in the kernel program's memory on core c. -/
def kargs (m : (ℓ : Loc nD τ sig) → Buf (Elt Ideal) ℓ) (c : Dev nD) : Args where
  mem := m ((c : Thread nD τ).loc main_arg0)
  od := m ((c : Thread nD τ).loc main_arg1)
  rw := walkEmb (m ((c : Thread nD τ).loc main_arg0)) (m ((c : Thread nD τ).loc main_arg2))
    (m ((c : Thread nD τ).loc main_arg3)) (m ((c : Thread nD τ).loc main_arg4))
  W1 := m ((c : Thread nD τ).loc main_arg5)
  b1 := m ((c : Thread nD τ).loc main_arg6)
  W2 := m ((c : Thread nD τ).loc main_arg7)
  b2 := m ((c : Thread nD τ).loc main_arg8)
  Wi := m ((c : Thread nD τ).loc main_arg9)
  bi := m ((c : Thread nD τ).loc main_arg10)
  Wh := m ((c : Thread nD τ).loc main_arg11)
  bh := m ((c : Thread nD τ).loc main_arg12)
  Wp1 := m ((c : Thread nD τ).loc main_arg13)
  bp1 := m ((c : Thread nD τ).loc main_arg14)
  Wp2 := m ((c : Thread nD τ).loc main_arg15)
  bp2 := m ((c : Thread nD τ).loc main_arg16)

end Kernel

section Reference
open Cert.ReferenceIdeal

/-- The layer's arguments in the reference program's memory on core c. -/
def rargs (m : (ℓ : Loc nD τ sig) → Buf (Elt Ideal) ℓ) (c : Dev nD) : Args where
  mem := m ((c : Thread nD τ).loc main_arg0)
  od := m ((c : Thread nD τ).loc main_arg1)
  rw := walkEmb (m ((c : Thread nD τ).loc main_arg0)) (m ((c : Thread nD τ).loc main_arg2))
    (m ((c : Thread nD τ).loc main_arg3)) (m ((c : Thread nD τ).loc main_arg4))
  W1 := m ((c : Thread nD τ).loc main_arg5)
  b1 := m ((c : Thread nD τ).loc main_arg6)
  W2 := m ((c : Thread nD τ).loc main_arg7)
  b2 := m ((c : Thread nD τ).loc main_arg8)
  Wi := m ((c : Thread nD τ).loc main_arg9)
  bi := m ((c : Thread nD τ).loc main_arg10)
  Wh := m ((c : Thread nD τ).loc main_arg11)
  bh := m ((c : Thread nD τ).loc main_arg12)
  Wp1 := m ((c : Thread nD τ).loc main_arg13)
  bp1 := m ((c : Thread nD τ).loc main_arg14)
  Wp2 := m ((c : Thread nD τ).loc main_arg15)
  bp2 := m ((c : Thread nD τ).loc main_arg16)

end Reference

end Cert.Layer

end
-- ==== Proof.BlockReads.lean ====
/-
  The windows' blocks, read at an entry.

  Grid point t stages rows 128 t .. 128 t + 127 of the memories, of the OD matrix and of the pooled walk embedding, and
  every weight and bias array whole; it writes back rows 128 t .. 128 t + 127 of the result. So entry (p, q) of what
  point t writes back is the layer's result at (128 t + p, q), the 32 blocks tile the 4096 rows, and the result array
  after the run is the layer's result of the argument arrays.
-/
import proofs.«174440_j58033598104174_2_alg».proof.Proof.Gen.KernelIdeal.Value
import proofs.«174440_j58033598104174_2_alg».proof.Proof.KArgs

set_option maxRecDepth 16384

noncomputable section

namespace Cert.Layer.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index of every window at every grid point: the three row-blocked inputs and the output sit at block
    row t, block column 0; the fourteen weight and bias windows always at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = t.val ∧ win0_17.index t (1 : Fin 2) = 0) :=
  (by decide +kernel : ∀ t : Fin grid0.N, _)

theorem point_lt (t : Fin cfg0.N) : t.val < 32 := lt_of_lt_of_eq t.isLt N_0

/-- The global row of row p of block t. -/
abbrev rowOf (t : Fin cfg0.N) (p : Fin 128) : Fin 4096 := ⟨t.val * 128 + p.val, by have := point_lt t; omega⟩

/-- Row p of window 0's block at point t is row 128 t + p of its array. -/
theorem read0 (c : Dev nD) (t : Fin cfg0.N) (p : Fin 128) (k : Fin 64) :
    iblk m c 0 t (ix2 p k) = V m c main_arg0 (ix2 (rowOf t p) k) := by
  obtain ⟨e0, e1⟩ := (index_facts t).1
  show V m c main_arg0 (((cfg0.win 0).blk t).view.emb (ix2 p k)) = _
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 64 + 1 * k.val = k.val; omega

/-- Row p of window 1's block at point t is row 128 t + p of its array. -/
theorem read1 (c : Dev nD) (t : Fin cfg0.N) (p : Fin 128) (k : Fin 4096) :
    iblk m c 1 t (ix2 p k) = V m c main_arg1 (ix2 (rowOf t p) k) := by
  obtain ⟨e0, e1⟩ := (index_facts t).2.1
  show V m c main_arg1 (((cfg0.win 1).blk t).view.emb (ix2 p k)) = _
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 4096 + 1 * k.val = k.val; omega

/-- Row p of window 2's block at point t is row 128 t + p of its array. -/
theorem read2 (c : Dev nD) (t : Fin cfg0.N) (p : Fin 128) (k : Fin 64) :
    iblk m c 2 t (ix2 p k) = V m c main_v14 (ix2 (rowOf t p) k) := by
  obtain ⟨e0, e1⟩ := (index_facts t).2.2.1
  show V m c main_v14 (((cfg0.win 2).blk t).view.emb (ix2 p k)) = _
  refine congrArg _ (funext fun a => Fin.ext ?_)
  match a with
  | ⟨0, _⟩ => show win0_2.index t (0 : Fin 2) * 128 + 1 * p.val = t.val * 128 + p.val; omega
  | ⟨1, _⟩ => show win0_2.index t (1 : Fin 2) * 64 + 1 * k.val = k.val; omega

/-- Window 3 stages its whole array at every point. -/
theorem read3 (c : Dev nD) (t : Fin cfg0.N) (a : Fin 64) (b : Fin 2176) :
    iblk m c 3 t (ix2 a b) = V m c main_v20 (ix2 a b) := by
  obtain ⟨e0, e1⟩ := (index_facts t).2.2.2.1
  show V m c main_v20 (((cfg0.win 3).blk t).view.emb (ix2 a b)) = _
  refine congrArg _ (funext fun d => Fin.ext ?_)
  match d with
  | ⟨0, _⟩ => show win0_3.index t (0 : Fin 2) * 64 + 1 * a.val = a.val; omega
  | ⟨1, _⟩ => show win0_3.index t (1 : Fin 2) * 2176 + 1 * b.val = b.val; omega

/-- Window 4 stages its whole array at every point. -/
theorem read4 (c : Dev nD) (t : Fin cfg0.N) (a : Fin 4096) (b : Fin 2176) :
    iblk m c 4 t (ix2 a b) = V m c main_v23 (ix2 a b) := by
  obtain ⟨e0, e1⟩ := (index_facts t).2.2.2.2.1
  show V m c main_v23 (((cfg0.win 4).blk t).view.emb (ix2 a b)) = _
  refine congrArg _ (funext fun d => Fin.ext ?_)
  match d with
  | ⟨0, _⟩ => show win0_4.index t (0 : Fin 2) * 4096 + 1 * a.val = a.val; omega
  | ⟨1, _⟩ => show win0_4.index t (1 : Fin 2) * 2176 + 1 * b.val = b.val; omega

/-- Window 5 stages its whole array at every point. -/
theorem read5 (c : Dev nD) (t : Fin cfg0.N) (a : Fin 64) (b : Fin 2176) :
    iblk m c 5 t (ix2 a b) = V m c main_v26 (ix2 a b) := by
  obtain ⟨e0, e1⟩ := (index_facts t).2.2.2.2.2.1
  show V m c main_v26 (((cfg0.win 5).blk t).view.emb (ix2 a b)) = _
  refine congrArg _ (funext fun d => Fin.ext ?_)
  match d with
  | ⟨0, _⟩ => show win0_5.index t (0 : Fin 2) * 64 + 1 * a.val = a.val; omega
  | ⟨1, _⟩ => show win0_5.index t (1 : Fin 2) * 2176 + 1 * b.val = b.val; omega

/-- Window 6 stages its whole array at every point. -/
theorem read6 (c : Dev nD) (t : Fin cfg0.N) (a : Fin 1) (b : Fin 2176) :
    iblk m c 6 t (ix2 a b) = V m c main_v37 (ix2 a b) := by
  obtain ⟨e0, e1⟩ := (index_facts t).2.2.2.2.2.2.1
  show V m c main_v37 (((cfg0.win 6).blk t).view.emb (ix2 a b)) = _
  refine congrArg _ (funext fun d => Fin.ext ?_)
  match d with
  | ⟨0, _⟩ => show win0_6.index t (0 : Fin 2) * 1 + 1 * a.val = a.val; omega
  | ⟨1, _⟩ => show win0_6.index t (1 : Fin 2) * 2176 + 1 * b.val = b.val; omega

/-- Window 7 stages its whole array at every point. -/
theorem read7 (c : Dev nD) (t : Fin cfg0.N) (a : Fin 2176) (b : Fin 64) :
    iblk m c 7 t (ix2 a b) = V m c main_v28 (ix2 a b) := by
  obtain ⟨e0, e1⟩ := (index_facts t).2.2.2.2.2.2.2.1
  show V m c main_v28 (((cfg0.win 7).blk t).view.emb (ix2 a b)) = _
  refine congrArg _ (funext fun d => Fin.ext ?_)
  match d with
  | ⟨0, _⟩ => show win0_7.index t (0 : Fin 2) * 2176 + 1 * a.val = a.val; omega
  | ⟨1, _⟩ => show win0_7.index t (1 : Fin 2) * 64 + 1 * b.val = b.val; omega

/-- Window 8 stages its whole array at every point. -/
theorem read8 (c : Dev nD) (t : Fin cfg0.N) (a : Fin 1) (b : Fin 64) :
    iblk m c 8 t (ix2 a b) = V m c main_v38 (ix2 a b) := by
  obtain ⟨e0, e1⟩ := (index_facts t).2.2.2.2.2.2.2.2.1
  show V m c main_v38 (((cfg0.win 8).blk t).view.emb (ix2 a b)) = _
  refine congrArg _ (funext fun d => Fin.ext ?_)
  match d with
  | ⟨0, _⟩ => show win0_8.index t (0 : Fin 2) * 1 + 1 * a.val = a.val; omega
  | ⟨1, _⟩ => show win0_8.index t (1 : Fin 2) * 64 + 1 * b.val = b.val; omega

/-- Window 9 stages its whole array at every point. -/
theorem read9 (c : Dev nD) (t : Fin cfg0.N) (a : Fin 64) (b : Fin 192) :
    iblk m c 9 t (ix2 a b) = V m c main_v30 (ix2 a b) := by
  obtain ⟨e0, e1⟩ := (index_facts t).2.2.2.2.2.2.2.2.2.1
  show V m c main_v30 (((cfg0.win 9).blk t).view.emb (ix2 a b)) = _
  refine congrArg _ (funext fun d => Fin.ext ?_)
  match d with
  | ⟨0, _⟩ => show win0_9.index t (0 : Fin 2) * 64 + 1 * a.val = a.val; omega
  | ⟨1, _⟩ => show win0_9.index t (1 : Fin 2) * 192 + 1 * b.val = b.val; omega

/-- Window 10 stages its whole array at every point. -/
theorem read10 (c : Dev nD) (t : Fin cfg0.N) (a : Fin 1) (b : Fin 192) :
    iblk m c 10 t (ix2 a b) = V m c main_v39 (ix2 a b) := by
  obtain ⟨e0, e1⟩ := (index_facts t).2.2.2.2.2.2.2.2.2.2.1
  show V m c main_v39 (((cfg0.win 10).blk t).view.emb (ix2 a b)) = _
  refine congrArg _ (funext fun d => Fin.ext ?_)
  match d with
  | ⟨0, _⟩ => show win0_10.index t (0 : Fin 2) * 1 + 1 * a.val = a.val; omega
  | ⟨1, _⟩ => show win0_10.index t (1 : Fin 2) * 192 + 1 * b.val = b.val; omega

/-- Window 11 stages its whole array at every point. -/
theorem read11 (c : Dev nD) (t : Fin cfg0.N) (a : Fin 64) (b : Fin 192) :
    iblk m c 11 t (ix2 a b) = V m c main_v32 (ix2 a b) := by
  obtain ⟨e0, e1⟩ := (index_facts t).2.2.2.2.2.2.2.2.2.2.2.1
  show V m c main_v32 (((cfg0.win 11).blk t).view.emb (ix2 a b)) = _
  refine congrArg _ (funext fun d => Fin.ext ?_)
  match d with
  | ⟨0, _⟩ => show win0_11.index t (0 : Fin 2) * 64 + 1 * a.val = a.val; omega
  | ⟨1, _⟩ => show win0_11.index t (1 : Fin 2) * 192 + 1 * b.val = b.val; omega

/-- Window 12 stages its whole array at every point. -/
theorem read12 (c : Dev nD) (t : Fin cfg0.N) (a : Fin 1) (b : Fin 192) :
    iblk m c 12 t (ix2 a b) = V m c main_v40 (ix2 a b) := by
  obtain ⟨e0, e1⟩ := (index_facts t).2.2.2.2.2.2.2.2.2.2.2.2.1
  show V m c main_v40 (((cfg0.win 12).blk t).view.emb (ix2 a b)) = _
  refine congrArg _ (funext fun d => Fin.ext ?_)
  match d with
  | ⟨0, _⟩ => show win0_12.index t (0 : Fin 2) * 1 + 1 * a.val = a.val; omega
  | ⟨1, _⟩ => show win0_12.index t (1 : Fin 2) * 192 + 1 * b.val = b.val; omega

/-- Window 13 stages its whole array at every point. -/
theorem read13 (c : Dev nD) (t : Fin cfg0.N) (a : Fin 64) (b : Fin 64) :
    iblk m c 13 t (ix2 a b) = V m c main_v34 (ix2 a b) := by
  obtain ⟨e0, e1⟩ := (index_facts t).2.2.2.2.2.2.2.2.2.2.2.2.2.1
  show V m c main_v34 (((cfg0.win 13).blk t).view.emb (ix2 a b)) = _
  refine congrArg _ (funext fun d => Fin.ext ?_)
  match d with
  | ⟨0, _⟩ => show win0_13.index t (0 : Fin 2) * 64 + 1 * a.val = a.val; omega
  | ⟨1, _⟩ => show win0_13.index t (1 : Fin 2) * 64 + 1 * b.val = b.val; omega

/-- Window 14 stages its whole array at every point. -/
theorem read14 (c : Dev nD) (t : Fin cfg0.N) (a : Fin 1) (b : Fin 64) :
    iblk m c 14 t (ix2 a b) = V m c main_v41 (ix2 a b) := by
  obtain ⟨e0, e1⟩ := (index_facts t).2.2.2.2.2.2.2.2.2.2.2.2.2.2.1
  show V m c main_v41 (((cfg0.win 14).blk t).view.emb (ix2 a b)) = _
  refine congrArg _ (funext fun d => Fin.ext ?_)
  match d with
  | ⟨0, _⟩ => show win0_14.index t (0 : Fin 2) * 1 + 1 * a.val = a.val; omega
  | ⟨1, _⟩ => show win0_14.index t (1 : Fin 2) * 64 + 1 * b.val = b.val; omega

/-- Window 15 stages its whole array at every point. -/
theorem read15 (c : Dev nD) (t : Fin cfg0.N) (a : Fin 64) (b : Fin 4096) :
    iblk m c 15 t (ix2 a b) = V m c main_v36 (ix2 a b) := by
  obtain ⟨e0, e1⟩ := (index_facts t).2.2.2.2.2.2.2.2.2.2.2.2.2.2.2.1
  show V m c main_v36 (((cfg0.win 15).blk t).view.emb (ix2 a b)) = _
  refine congrArg _ (funext fun d => Fin.ext ?_)
  match d with
  | ⟨0, _⟩ => show win0_15.index t (0 : Fin 2) * 64 + 1 * a.val = a.val; omega
  | ⟨1, _⟩ => show win0_15.index t (1 : Fin 2) * 4096 + 1 * b.val = b.val; omega

/-- Window 16 stages its whole array at every point. -/
theorem read16 (c : Dev nD) (t : Fin cfg0.N) (a : Fin 1) (b : Fin 4096) :
    iblk m c 16 t (ix2 a b) = V m c main_v42 (ix2 a b) := by
  obtain ⟨e0, e1⟩ := (index_facts t).2.2.2.2.2.2.2.2.2.2.2.2.2.2.2.2.1
  show V m c main_v42 (((cfg0.win 16).blk t).view.emb (ix2 a b)) = _
  refine congrArg _ (funext fun d => Fin.ext ?_)
  match d with
  | ⟨0, _⟩ => show win0_16.index t (0 : Fin 2) * 1 + 1 * a.val = a.val; omega
  | ⟨1, _⟩ => show win0_16.index t (1 : Fin 2) * 4096 + 1 * b.val = b.val; omega

/-! ## The output's blocks -/

/-- An index of the result array is in point t's block iff its row is one of the block's 128 rows. -/
theorem mem_out_blk (t : Fin cfg0.N) (i : S4096x4096.Idx) :
    i ∈ ((cfg0.win 17).blk t).view.set ↔ ∀ a : Fin 2, win0_17.index t a * S128x4096.size a ≤ (i a).val ∧ (i a).val < win0_17.index t a * S128x4096.size a + S128x4096.size a := by
  show i ∈ ((View.whole main_v43).slice (win0_17.rect t)).set ↔ _
  rw [View.set_slice_whole, Rect.mem_set_unit]
  exact Iff.rfl

/-- Every block row 0..31 is some grid point's. -/
theorem point_of_row : ∀ b : Fin 32, ∃ t : Fin cfg0.N, win0_17.index t = ![b.val, 0] :=
  (by decide +kernel : ∀ b : Fin 32, ∃ t : Fin grid0.N, win0_17.index t = ![b.val, 0])

/-- The 32 blocks of 128 rows tile the 4096 rows: every index of the result is in some writing point's block. -/
theorem out_cover (i : S4096x4096.Idx) :
    ∃ t : Fin cfg0.N, (cfg0.win 17).flush t = true ∧ i ∈ ((cfg0.win 17).blk t).view.set := by
  have hi0 : (i 0).val < 4096 := (i 0).isLt
  have hi1 : (i 1).val < 4096 := (i 1).isLt
  obtain ⟨t, ht⟩ := point_of_row ⟨(i 0).val / 128, by omega⟩
  have q0 : win0_17.index t (0 : Fin 2) = (i 0).val / 128 := congrFun ht 0
  have q1 : win0_17.index t (1 : Fin 2) = 0 := congrFun ht 1
  refine ⟨t, flush0_17 t, ?_⟩
  rw [mem_out_blk]
  intro a
  match a with
  | ⟨0, _⟩ => show win0_17.index t (0 : Fin 2) * 128 ≤ (i 0).val ∧ (i 0).val < win0_17.index t (0 : Fin 2) * 128 + 128; omega
  | ⟨1, _⟩ => show win0_17.index t (1 : Fin 2) * 4096 ≤ (i 1).val ∧ (i 1).val < win0_17.index t (1 : Fin 2) * 4096 + 4096; omega

/-- The embedding of entry (p, q) of point t's output block into the result array. -/
theorem out_emb (t : Fin cfg0.N) (p : Fin 128) (q : Fin 4096) :
    ((cfg0.win 17).blk t).view.emb (ix2 p q) = ix2 (rowOf t p) q := by
  obtain ⟨e0, e1⟩ := (index_facts t).2.2.2.2.2.2.2.2.2.2.2.2.2.2.2.2.2
  refine funext fun a => Fin.ext ?_
  match a with
  | ⟨0, _⟩ => show win0_17.index t (0 : Fin 2) * 128 + 1 * p.val = t.val * 128 + p.val; omega
  | ⟨1, _⟩ => show win0_17.index t (1 : Fin 2) * 4096 + 1 * q.val = q.val; omega

end Cert.Layer.Blocks

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.KernelBody.lean ====
/-
  The body's arithmetic at an entry: the message, the gated update with the prediction layer's hidden row, and the
  result row, each read at one index of a row block and matched with the staged specification of the layer.
-/
import proofs.«174440_j58033598104174_2_alg».proof.Proof.Gen.KernelIdeal.Skeleton
import proofs.«174440_j58033598104174_2_alg».proof.Proof.Spec
import proofs.«174440_j58033598104174_2_alg».proof.Proof.LibMatmulIdx
import proofs.«174440_j58033598104174_2_alg».proof.Proof.LibHostRead
import Idealize.ShloMosaic.Lib.ValueLayout

noncomputable section

open scoped BigOperators

namespace Cert.Layer.Body

open Cert.KernelIdeal Cert.KernelIdeal.Gen Idealize.ShloMosaic Idealize.ShloMosaic.ValueIdx

/-- A product over dimension numbers that are the plain ones, into the zero accumulator, read at `(p, c)`. -/
theorem mm_apply {M K N : Nat} {φ₁ φ₂ : FTy} (D : DotDims ⟨2, ![M, K]⟩ ⟨2, ![K, N]⟩ ⟨2, ![M, N]⟩)
    (hD : D = DotDims.plain M K N) (lhs : FVec Ideal ⟨2, ![M, K]⟩ φ₁) (rhs : FVec Ideal ⟨2, ![K, N]⟩ φ₂)
    (p : Fin M) (c : Fin N) :
    matmul D none lhs rhs (constant (F := Ideal) ⟨2, ![M, N]⟩ .f32 0x00000000#32) (ix2 p c)
      = ∑ k : Fin K, lhs (ix2 p k) * rhs (ix2 k c) := by
  subst hD
  exact Cert.MatmulIdx.matmul_plain_zero_apply none lhs rhs p c

/-- A row `[1, b]`, cast to its own shape and broadcast down `a` rows, reads its own column. -/
theorem row_apply {α : Type} {a b : Nat} (x : (⟨2, ![1, b]⟩ : Shape).Idx → α)
    (hs : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x hs) hb (ix2 p c) = x (ix2 (0 : Fin 1) c) := by
  rw [shapeCast_self]
  exact broadcastTo_1b_ab_apply x hb p c

/-- A block times a weight block into the zero accumulator, plus a bias row broadcast down the rows (both weight
    and bias first cast to their own shapes), read at `(p, c)`. -/
theorem affine_apply {M K N : Nat} {φ₁ φ₂ : FTy} (D : DotDims ⟨2, ![M, K]⟩ ⟨2, ![K, N]⟩ ⟨2, ![M, N]⟩)
    (hD : D = DotDims.plain M K N) (lhs : FVec Ideal ⟨2, ![M, K]⟩ φ₁) (w : FVec Ideal ⟨2, ![K, N]⟩ φ₂)
    (b : FVec Ideal ⟨2, ![1, N]⟩ .f32)
    (hw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![M, N]⟩) (p : Fin M) (c : Fin N) :
    addf (matmul D none lhs (shapeCast ⟨2, ![K, N]⟩ w hw) (constant (F := Ideal) ⟨2, ![M, N]⟩ .f32 0x00000000#32))
        (broadcastTo ⟨2, ![M, N]⟩ (shapeCast ⟨2, ![1, N]⟩ b hs) hb) (ix2 p c)
      = (∑ k : Fin K, lhs (ix2 p k) * w (ix2 k c)) + b (ix2 (0 : Fin 1) c) := by
  rw [addf_apply, shapeCast_self w hw]
  exact congrArg₂ (· + ·) (mm_apply D hD lhs w p c) (row_apply b hs hb p c)

/-- The result row: the prediction layer's hidden row times `Wp2ᵀ`, plus `bp2`. -/
theorem out_apply (A : Cert.Layer.Args) (i : Fin 4096) (p : Fin 128)
    (v76 : FVec Ideal S128x64 .f32) (x15 : Vec Ideal S64x4096 .bf16) (x16 : Vec Ideal S1x4096 .f32)
    (hv : ∀ e : Fin 64, v76 (ix2 p e) = Cert.Layer.pred A i e)
    (h15 : ∀ (e : Fin 64) (j : Fin 4096), x15 (ix2 e j) = A.Wp2 (ix2 j e))
    (h16 : ∀ j : Fin 4096, x16 (ix2 0 j) = A.bp2 (ix1 j)) (q : Fin 4096) :
    k0_pay1 v76 x15 x16 (ix2 p q) = Cert.Layer.out A i q := by
  unfold k0_pay1 Cert.Layer.out
  refine (affine_apply _ rfl _ _ _ _ _ _ p q).trans ?_
  exact congrArg₂ (· + ·) (Finset.sum_congr rfl fun e _ => congrArg₂ (· * ·) (hv e) (h15 e q)) (h16 q)

/-- The message: the relu'd hidden row (2176 positions, the last 64 of them against zero weights) times `W2ᵀ`,
    plus `b2`. -/
theorem msg_apply (A : Cert.Layer.Args) (i : Fin 4096) (p : Fin 128)
    (x0 : Vec Ideal S128x64 .f32) (x1 : Vec Ideal S128x4096 .f32) (x2 : Vec Ideal S128x64 .f32)
    (x3 : Vec Ideal S64x2176 .bf16) (x4 : Vec Ideal S4096x2176 .bf16) (x5 : Vec Ideal S64x2176 .bf16)
    (x6 : Vec Ideal S1x2176 .f32) (x7 : Vec Ideal S2176x64 .bf16) (x8 : Vec Ideal S1x64 .f32)
    (h0 : ∀ k : Fin 64, x0 (ix2 p k) = A.mem (ix2 i k))
    (h1 : ∀ k : Fin 4096, x1 (ix2 p k) = A.od (ix2 i k))
    (h2 : ∀ k : Fin 64, x2 (ix2 p k) = A.rw (ix2 i k))
    (h3 : ∀ (k : Fin 64) (h : Fin 2176), x3 (ix2 k h) = Cert.Layer.padded (fun h' => A.W1 (ix2 h' ⟨k.val, by omega⟩)) h)
    (h4 : ∀ (k : Fin 4096) (h : Fin 2176), x4 (ix2 k h) = Cert.Layer.padded (fun h' => A.W1 (ix2 h' ⟨64 + k.val, by omega⟩)) h)
    (h5 : ∀ (k : Fin 64) (h : Fin 2176), x5 (ix2 k h) = Cert.Layer.padded (fun h' => A.W1 (ix2 h' ⟨4160 + k.val, by omega⟩)) h)
    (h6 : ∀ h : Fin 2176, x6 (ix2 0 h) = Cert.Layer.padded (fun h' => A.b1 (ix1 h')) h)
    (h7 : ∀ (h : Fin 2176) (j : Fin 64), x7 (ix2 h j) = Cert.Layer.padded (fun h' => A.W2 (ix2 j h')) h)
    (h8 : ∀ j : Fin 64, x8 (ix2 0 j) = A.b2 (ix1 j))
    (j : Fin 64) :
    k0_pay2 x0 x2 x1 x3 x5 x4 x6 x7 x8 (ix2 p j) = Cert.Layer.msg A i j := by
  unfold k0_pay2 Cert.Layer.msg
  rw [truncf_apply]
  refine (affine_apply _ rfl _ _ _ _ _ _ p j).trans ?_
  refine congrArg₂ (· + ·) ?_ (h8 j)
  refine (Finset.sum_congr rfl fun h _ => congrArg₂ (· * ·) rfl (h7 h j)).trans ?_
  refine (Cert.Layer.sum_mul_padded _ _).trans ?_
  refine Finset.sum_congr rfl fun h _ => congrArg₂ (· * ·) ?_ rfl
  beta_reduce
  rw [truncf_apply, maximumf_apply]
  unfold Cert.Layer.hidden Cert.Layer.pre
  refine congrArg₂ max ?_ rfl
  rw [addf_apply, addf_apply, addf_apply]
  refine congrArg₂ (· + ·) (congrArg₂ (· + ·) (congrArg₂ (· + ·) ?_ ?_) ?_) ?_
  · refine (mm_apply _ rfl _ _ p _).trans (Finset.sum_congr rfl fun k _ => congrArg₂ (· * ·) (h0 k) ?_)
    rw [shapeCast_self]
    exact (h3 k _).trans (Cert.Layer.padded_castLE _ h)
  · refine (mm_apply _ rfl _ _ p _).trans (Finset.sum_congr rfl fun k _ => congrArg₂ (· * ·) ?_ ?_)
    · rw [truncf_apply, shapeCast_self]
      exact h2 k
    · rw [shapeCast_self]
      exact (h5 k _).trans (Cert.Layer.padded_castLE _ h)
  · refine (mm_apply _ rfl _ _ p _).trans (Finset.sum_congr rfl fun k _ => congrArg₂ (· * ·) (h1 k) ?_)
    rw [shapeCast_self]
    exact (h4 k _).trans (Cert.Layer.padded_castLE _ h)
  · refine (row_apply _ _ _ p _).trans ?_
    exact (h6 _).trans (Cert.Layer.padded_castLE _ h)

/-- The logistic function and the hyperbolic tangent on a block act entry by entry. -/
theorem logistic_apply {s : Shape} {φ : FTy} (x : FVec Ideal s φ) (i : s.Idx) :
    logistic x i = Ideal.logistic (x i) := rfl

theorem tanh_apply {s : Shape} {φ : FTy} (x : FVec Ideal s φ) (i : s.Idx) : tanh x i = Ideal.tanh (x i) := rfl

/-- The reset gate from the first thirds of the two gate rows. -/
theorem rgate_apply (A : Cert.Layer.Args) (i : Fin 4096) (p : Fin 128) (v40 v48 : FVec Ideal S128x192 .f32)
    (hgi : ∀ g : Fin 192, v40 (ix2 p g) = Cert.Layer.gi A i g)
    (hgh : ∀ g : Fin 192, v48 (ix2 p g) = Cert.Layer.gh A i g) (d : Fin 64) :
    logistic (addf (extractStridedSlice S128x64 ![0, 0] v40 slices_S128x192_o0_0_S128x64)
        (extractStridedSlice S128x64 ![0, 0] v48 slices_S128x192_o0_0_S128x64)) (ix2 p d)
      = Cert.Layer.rgate A i d := by
  unfold Cert.Layer.rgate
  rw [logistic_apply, addf_apply]
  refine congrArg Ideal.logistic (congrArg₂ (· + ·) ?_ ?_)
  · exact (Cert.HostRead.cols_apply 0 _ v40 p d (by omega)).trans
      ((hgi _).trans (congrArg (Cert.Layer.gi A i) (Fin.ext (Nat.zero_add _))))
  · exact (Cert.HostRead.cols_apply 0 _ v48 p d (by omega)).trans
      ((hgh _).trans (congrArg (Cert.Layer.gh A i) (Fin.ext (Nat.zero_add _))))

/-- The update gate from the second thirds. -/
theorem zgate_apply (A : Cert.Layer.Args) (i : Fin 4096) (p : Fin 128) (v40 v48 : FVec Ideal S128x192 .f32)
    (hgi : ∀ g : Fin 192, v40 (ix2 p g) = Cert.Layer.gi A i g)
    (hgh : ∀ g : Fin 192, v48 (ix2 p g) = Cert.Layer.gh A i g) (d : Fin 64) :
    logistic (addf (extractStridedSlice S128x64 ![0, 64] v40 slices_S128x192_o0_64_S128x64)
        (extractStridedSlice S128x64 ![0, 64] v48 slices_S128x192_o0_64_S128x64)) (ix2 p d)
      = Cert.Layer.zgate A i d := by
  unfold Cert.Layer.zgate
  rw [logistic_apply, addf_apply]
  refine congrArg Ideal.logistic (congrArg₂ (· + ·) ?_ ?_)
  · exact (Cert.HostRead.cols_apply 64 _ v40 p d (by omega)).trans (hgi _)
  · exact (Cert.HostRead.cols_apply 64 _ v48 p d (by omega)).trans (hgh _)

/-- The candidate memory from the last thirds and the reset gate. -/
theorem cand_apply (A : Cert.Layer.Args) (i : Fin 4096) (p : Fin 128) (v40 v48 : FVec Ideal S128x192 .f32)
    (r : FVec Ideal S128x64 .f32)
    (hgi : ∀ g : Fin 192, v40 (ix2 p g) = Cert.Layer.gi A i g)
    (hgh : ∀ g : Fin 192, v48 (ix2 p g) = Cert.Layer.gh A i g)
    (hr : ∀ d : Fin 64, r (ix2 p d) = Cert.Layer.rgate A i d) (d : Fin 64) :
    tanh (addf (extractStridedSlice S128x64 ![0, 128] v40 slices_S128x192_o0_128_S128x64)
        (mulf r (extractStridedSlice S128x64 ![0, 128] v48 slices_S128x192_o0_128_S128x64))) (ix2 p d)
      = Cert.Layer.cand A i d := by
  unfold Cert.Layer.cand
  rw [tanh_apply, addf_apply, mulf_apply]
  refine congrArg Ideal.tanh (congrArg₂ (· + ·) ?_ (congrArg₂ (· * ·) (hr d) ?_))
  · exact (Cert.HostRead.cols_apply 128 _ v40 p d (by omega)).trans (hgi _)
  · exact (Cert.HostRead.cols_apply 128 _ v48 p d (by omega)).trans (hgh _)

/-- The updated memory from the update gate, the candidate and the old memory. -/
theorem upd_apply (A : Cert.Layer.Args) (i : Fin 4096) (p : Fin 128) (z c x0 : FVec Ideal S128x64 .f32)
    (hz : ∀ d : Fin 64, z (ix2 p d) = Cert.Layer.zgate A i d)
    (hc : ∀ d : Fin 64, c (ix2 p d) = Cert.Layer.cand A i d)
    (h0 : ∀ d : Fin 64, x0 (ix2 p d) = A.mem (ix2 i d)) (d : Fin 64) :
    addf (mulf (subf (broadcast S128x64 (Scalar.ofBits (F := Ideal) .f32 0x3F800000#32)) z) c) (mulf z x0) (ix2 p d)
      = Cert.Layer.upd A i d := by
  unfold Cert.Layer.upd
  rw [addf_apply, mulf_apply, mulf_apply, subf_apply, broadcast_apply]
  exact congrArg₂ (· + ·) (congrArg₂ (· * ·) (congrArg₂ (· - ·) rfl (hz d)) (hc d)) (congrArg₂ (· * ·) (hz d) (h0 d))

/-- The prediction layer's hidden row: the gated update of the memory row by the message row, times `Wp1ᵀ`, plus
    `bp1`, relu'd. -/
theorem pred_apply (A : Cert.Layer.Args) (i : Fin 4096) (p : Fin 128)
    (x0 : Vec Ideal S128x64 .f32) (v33 : FVec Ideal S128x64 .bf16)
    (x9 : Vec Ideal S64x192 .bf16) (x10 : Vec Ideal S1x192 .f32) (x11 : Vec Ideal S64x192 .bf16)
    (x12 : Vec Ideal S1x192 .f32) (x13 : Vec Ideal S64x64 .bf16) (x14 : Vec Ideal S1x64 .f32)
    (h0 : ∀ k : Fin 64, x0 (ix2 p k) = A.mem (ix2 i k))
    (hm : ∀ j : Fin 64, v33 (ix2 p j) = Cert.Layer.msg A i j)
    (h9 : ∀ (j : Fin 64) (g : Fin 192), x9 (ix2 j g) = A.Wi (ix2 g j))
    (h10 : ∀ g : Fin 192, x10 (ix2 0 g) = A.bi (ix1 g))
    (h11 : ∀ (j : Fin 64) (g : Fin 192), x11 (ix2 j g) = A.Wh (ix2 g j))
    (h12 : ∀ g : Fin 192, x12 (ix2 0 g) = A.bh (ix1 g))
    (h13 : ∀ d e : Fin 64, x13 (ix2 d e) = A.Wp1 (ix2 e d))
    (h14 : ∀ e : Fin 64, x14 (ix2 0 e) = A.bp1 (ix1 e))
    (e : Fin 64) :
    k0_pay3 x0 v33 x9 x10 x11 x12 x13 x14 (ix2 p e) = Cert.Layer.pred A i e := by
  have hgi : ∀ g : Fin 192,
      addf (matmul dot_S128x64_S64x192_S128x192_1_0_0_1_n_n none v33
            (shapeCast S64x192 x9 shapeCasts_S64x192_S64x192) (constant (F := Ideal) S128x192 .f32 0x00000000#32))
          (broadcastTo S128x192 (shapeCast S1x192 x10 shapeCasts_S1x192_S1x192) broadcasts_S1x192_S128x192) (ix2 p g)
        = Cert.Layer.gi A i g := fun g =>
    (affine_apply _ rfl _ _ _ _ _ _ p g).trans
      (congrArg₂ (· + ·) (Finset.sum_congr rfl fun j _ => congrArg₂ (· * ·) (hm j) (h9 j g)) (h10 g))
  have hgh : ∀ g : Fin 192,
      addf (matmul dot_S128x64_S64x192_S128x192_1_0_0_1_n_n none (truncf .bf16 x0 bitsLt_bf16_f32)
            (shapeCast S64x192 x11 shapeCasts_S64x192_S64x192) (constant (F := Ideal) S128x192 .f32 0x00000000#32))
          (broadcastTo S128x192 (shapeCast S1x192 x12 shapeCasts_S1x192_S1x192) broadcasts_S1x192_S128x192) (ix2 p g)
        = Cert.Layer.gh A i g := fun g =>
    (affine_apply _ rfl _ _ _ _ _ _ p g).trans
      (congrArg₂ (· + ·) (Finset.sum_congr rfl fun j _ => congrArg₂ (· * ·) (h0 j) (h11 j g)) (h12 g))
  unfold k0_pay3 Cert.Layer.pred
  rw [maximumf_apply]
  refine congrArg₂ max ?_ rfl
  refine (affine_apply _ rfl _ _ _ _ _ _ p e).trans ?_
  refine congrArg₂ (· + ·) (Finset.sum_congr rfl fun d _ => congrArg₂ (· * ·) ?_ (h13 d e)) (h14 e)
  rw [truncf_apply]
  exact upd_apply A i p _ _ x0 (fun d => zgate_apply A i p _ _ hgi hgh d)
    (fun d => cand_apply A i p _ _ _ hgi hgh (fun d => rgate_apply A i p _ _ hgi hgh d) d) h0 d

/-- THE BODY AT AN ENTRY: the three stages composed. At row `p` of a block whose global row is `i`, column `q` of
    what the body stores is entry `(i, q)` of the layer's result. -/
theorem body_apply (A : Cert.Layer.Args) (i : Fin 4096) (p : Fin 128)
    (x0 : Vec Ideal S128x64 .f32) (x1 : Vec Ideal S128x4096 .f32) (x2 : Vec Ideal S128x64 .f32)
    (x3 : Vec Ideal S64x2176 .bf16) (x4 : Vec Ideal S4096x2176 .bf16) (x5 : Vec Ideal S64x2176 .bf16)
    (x6 : Vec Ideal S1x2176 .f32) (x7 : Vec Ideal S2176x64 .bf16) (x8 : Vec Ideal S1x64 .f32)
    (x9 : Vec Ideal S64x192 .bf16) (x10 : Vec Ideal S1x192 .f32) (x11 : Vec Ideal S64x192 .bf16)
    (x12 : Vec Ideal S1x192 .f32) (x13 : Vec Ideal S64x64 .bf16) (x14 : Vec Ideal S1x64 .f32)
    (x15 : Vec Ideal S64x4096 .bf16) (x16 : Vec Ideal S1x4096 .f32)
    (h0 : ∀ k : Fin 64, x0 (ix2 p k) = A.mem (ix2 i k))
    (h1 : ∀ k : Fin 4096, x1 (ix2 p k) = A.od (ix2 i k))
    (h2 : ∀ k : Fin 64, x2 (ix2 p k) = A.rw (ix2 i k))
    (h3 : ∀ (k : Fin 64) (h : Fin 2176), x3 (ix2 k h) = Cert.Layer.padded (fun h' => A.W1 (ix2 h' ⟨k.val, by omega⟩)) h)
    (h4 : ∀ (k : Fin 4096) (h : Fin 2176), x4 (ix2 k h) = Cert.Layer.padded (fun h' => A.W1 (ix2 h' ⟨64 + k.val, by omega⟩)) h)
    (h5 : ∀ (k : Fin 64) (h : Fin 2176), x5 (ix2 k h) = Cert.Layer.padded (fun h' => A.W1 (ix2 h' ⟨4160 + k.val, by omega⟩)) h)
    (h6 : ∀ h : Fin 2176, x6 (ix2 0 h) = Cert.Layer.padded (fun h' => A.b1 (ix1 h')) h)
    (h7 : ∀ (h : Fin 2176) (j : Fin 64), x7 (ix2 h j) = Cert.Layer.padded (fun h' => A.W2 (ix2 j h')) h)
    (h8 : ∀ j : Fin 64, x8 (ix2 0 j) = A.b2 (ix1 j))
    (h9 : ∀ (j : Fin 64) (g : Fin 192), x9 (ix2 j g) = A.Wi (ix2 g j))
    (h10 : ∀ g : Fin 192, x10 (ix2 0 g) = A.bi (ix1 g))
    (h11 : ∀ (j : Fin 64) (g : Fin 192), x11 (ix2 j g) = A.Wh (ix2 g j))
    (h12 : ∀ g : Fin 192, x12 (ix2 0 g) = A.bh (ix1 g))
    (h13 : ∀ d e : Fin 64, x13 (ix2 d e) = A.Wp1 (ix2 e d))
    (h14 : ∀ e : Fin 64, x14 (ix2 0 e) = A.bp1 (ix1 e))
    (h15 : ∀ (e : Fin 64) (j : Fin 4096), x15 (ix2 e j) = A.Wp2 (ix2 j e))
    (h16 : ∀ j : Fin 4096, x16 (ix2 0 j) = A.bp2 (ix1 j))
    (q : Fin 4096) :
    k0_pay1 (k0_pay3 x0 (k0_pay2 x0 x2 x1 x3 x5 x4 x6 x7 x8) x9 x10 x11 x12 x13 x14) x15 x16 (ix2 p q)
      = Cert.Layer.out A i q :=
  out_apply A i p _ x15 x16
    (fun e => pred_apply A i p x0 _ x9 x10 x11 x12 x13 x14 h0
      (fun j => msg_apply A i p x0 x1 x2 x3 x4 x5 x6 x7 x8 h0 h1 h2 h3 h4 h5 h6 h7 h8 j)
      h9 h10 h11 h12 h13 h14 e)
    h15 h16 q

end Cert.Layer.Body

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.KernelHostPad.lean ====
/-
  What the region finds in the padded weight arrays and in the pooled walk embedding.

  Before its one region the program continues the first-layer weights W1 (2112 rows of 4224 columns) by 64 rows, the
  first-layer bias b1 (2112 entries) by 64 entries and the second-layer weights W2 (64 rows of 2112 columns) by 64
  columns, each time with the integer zero converted to a float, which is the real zero. It then cuts the padded W1 into
  its memory columns 0..63, its OD columns 64..4159 and its walk columns 4160..4223 and transposes each piece, transposes
  the padded W2, and views the padded b1 as a one-row matrix; a change of float format is the identity on the extended
  reals. Read at an index, each of the five arrays is therefore the corresponding weight entry while the hidden
  coordinate is below 2112 and zero from 2112 on: a row continued by zeros.

  The pooled walk embedding is computed before the region by the same operations in both programs (gather the walks'
  memory rows, mean over the walk, project, add the bias), so the buffer holds that function of the launched arrays.
-/
import proofs.«174440_j58033598104174_2_alg».proof.Proof.Gen.KernelIdeal.Frame
import proofs.«174440_j58033598104174_2_alg».proof.Proof.KArgs
import proofs.«174440_j58033598104174_2_alg».proof.Proof.LibHostRead
import proofs.«174440_j58033598104174_2_alg».proof.Proof.LibMatmulRead
import proofs.«174440_j58033598104174_2_alg».proof.Proof.LibTypedRead
import proofs.«174440_j58033598104174_2_alg».proof.Proof.LibTypedHEq
import Idealize.ShloMosaic.Lib.KernelVsHost

noncomputable section

open scoped BigOperators

namespace Cert.Layer.Host

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## A host pad by trailing entries on one axis, read at an index -/

section PadRead
variable {α : Type}

/-- An `[a, n]` array continued by `p` rows of the padding value, read at `(r, q)`: the array's entry while `r < a`,
    the padding value from row `a` on. -/
theorem pad_rows_apply {a b n : ℕ} (p : ℕ) (x : (⟨2, ![a, n]⟩ : Shape).Idx → α) {u : Shape} (v : u.Idx → α)
    (hp : (⟨2, ![a, n]⟩ : Shape).Pads (![0, 0] : Fin 2 → ℕ) ![p, 0] ![0, 0] ⟨2, ![b, n]⟩) (hu : 0 < u.numel)
    (r : Fin b) (q : Fin n) :
    pad ⟨2, ![b, n]⟩ ![0, 0] ![p, 0] ![0, 0] x v hp hu (ix2 r q)
      = if hr : r.val < a then x (ix2 ⟨r.val, hr⟩ q) else v (Shape.Idx.first hu) := by
  by_cases hr : r.val < a
  · rw [dif_pos hr]
    exact pad_apply_of_inside _ _ _ x v hp hu _ (ix2 ⟨r.val, hr⟩ q) (fun ax => by
      match ax with
      | ⟨0, _⟩ => show r.val = 0 + r.val * (0 + 1); omega
      | ⟨1, _⟩ => show q.val = 0 + q.val * (0 + 1); omega)
  · rw [dif_neg hr]
    exact pad_apply_of_not_inside _ _ _ x v hp hu _ (0 : Fin 2) (fun hin => by
      have e : (r.val - 0) / (0 + 1) < a := hin.2.2
      rw [Nat.sub_zero, Nat.zero_add, Nat.div_one] at e
      exact hr e)

/-- An `[a, n]` array continued by `p` columns of the padding value, read at `(r, q)`: the array's entry while
    `q < n`, the padding value from column `n` on. -/
theorem pad_cols_apply {a n b : ℕ} (p : ℕ) (x : (⟨2, ![a, n]⟩ : Shape).Idx → α) {u : Shape} (v : u.Idx → α)
    (hp : (⟨2, ![a, n]⟩ : Shape).Pads (![0, 0] : Fin 2 → ℕ) ![0, p] ![0, 0] ⟨2, ![a, b]⟩) (hu : 0 < u.numel)
    (r : Fin a) (q : Fin b) :
    pad ⟨2, ![a, b]⟩ ![0, 0] ![0, p] ![0, 0] x v hp hu (ix2 r q)
      = if hq : q.val < n then x (ix2 r ⟨q.val, hq⟩) else v (Shape.Idx.first hu) := by
  by_cases hq : q.val < n
  · rw [dif_pos hq]
    exact pad_apply_of_inside _ _ _ x v hp hu _ (ix2 r ⟨q.val, hq⟩) (fun ax => by
      match ax with
      | ⟨0, _⟩ => show r.val = 0 + r.val * (0 + 1); omega
      | ⟨1, _⟩ => show q.val = 0 + q.val * (0 + 1); omega)
  · rw [dif_neg hq]
    exact pad_apply_of_not_inside _ _ _ x v hp hu _ (1 : Fin 2) (fun hin => by
      have e : (q.val - 0) / (0 + 1) < n := hin.2.2
      rw [Nat.sub_zero, Nat.zero_add, Nat.div_one] at e
      exact hq e)

/-- A list of `n` entries continued by `p` copies of the padding value, read at `q`: the list's entry while `q < n`,
    the padding value from entry `n` on. -/
theorem pad_vec_apply {n b : ℕ} (p : ℕ) (x : (⟨1, ![n]⟩ : Shape).Idx → α) {u : Shape} (v : u.Idx → α)
    (hp : (⟨1, ![n]⟩ : Shape).Pads (![0] : Fin 1 → ℕ) ![p] ![0] ⟨1, ![b]⟩) (hu : 0 < u.numel) (q : Fin b) :
    pad ⟨1, ![b]⟩ ![0] ![p] ![0] x v hp hu (ix1 q)
      = if hq : q.val < n then x (ix1 ⟨q.val, hq⟩) else v (Shape.Idx.first hu) := by
  by_cases hq : q.val < n
  · rw [dif_pos hq]
    exact pad_apply_of_inside _ _ _ x v hp hu _ (ix1 ⟨q.val, hq⟩) (fun ax => by
      match ax with
      | ⟨0, _⟩ => show q.val = 0 + q.val * (0 + 1); omega)
  · rw [dif_neg hq]
    exact pad_apply_of_not_inside _ _ _ x v hp hu _ (0 : Fin 1) (fun hin => by
      have e : (q.val - 0) / (0 + 1) < n := hin.2.2
      rw [Nat.sub_zero, Nat.zero_add, Nat.div_one] at e
      exact hq e)

end PadRead

/-- The padding value all three pads use: the integer zero converted to a float is the real zero. -/
theorem padValue_eq (i : S_.Idx) : (sitofp .f32 (constantI S_ 32 0#32) : FVec Ideal S_ .f32) i = 0 :=
  sitofp_zero

/-! ## The three padded arrays as terms, read at an index -/

/-- The first-layer weights continued by 64 rows of the padding value: row `h` of the array while `h < 2112`, zeros
    after. -/
theorem padRows_apply (x : S2112x4224.Idx → EReal) (h : Fin 2176) (k : Fin 4224) :
    pad S2176x4224 ![0, 0] ![64, 0] ![0, 0] x (sitofp .f32 (constantI S_ 32 0#32) : FVec Ideal S_ .f32)
        pads_S2112x4224_S2176x4224_0640_000 h_S_ (ix2 h k)
      = padded (fun h' => x (ix2 h' k)) h := by
  refine (pad_rows_apply 64 x _ pads_S2112x4224_S2176x4224_0640_000 h_S_ h k).trans ?_
  unfold padded
  by_cases hh : h.val < 2112
  · rw [dif_pos hh, dif_pos hh]
  · rw [dif_neg hh, dif_neg hh]; exact padValue_eq _

/-- The first-layer bias continued by 64 copies of the padding value. -/
theorem padVec_apply (x : S2112.Idx → EReal) (h : Fin 2176) :
    pad S2176 ![0] ![64] ![0] x (sitofp .f32 (constantI S_ 32 0#32) : FVec Ideal S_ .f32) pads_S2112_S2176_0640 h_S_ (ix1 h)
      = padded (fun h' => x (ix1 h')) h := by
  refine (pad_vec_apply 64 x _ pads_S2112_S2176_0640 h_S_ h).trans ?_
  unfold padded
  by_cases hh : h.val < 2112
  · rw [dif_pos hh, dif_pos hh]
  · rw [dif_neg hh, dif_neg hh]; exact padValue_eq _

/-- The second-layer weights continued by 64 columns of the padding value. -/
theorem padCols_apply (x : S64x2112.Idx → EReal) (j : Fin 64) (h : Fin 2176) :
    pad S64x2176 ![0, 0] ![0, 64] ![0, 0] x (sitofp .f32 (constantI S_ 32 0#32) : FVec Ideal S_ .f32)
        pads_S64x2112_S64x2176_000_0640 h_S_ (ix2 j h)
      = padded (fun h' => x (ix2 j h')) h := by
  refine (pad_cols_apply 64 x _ pads_S64x2112_S64x2176_000_0640 h_S_ j h).trans ?_
  unfold padded
  by_cases hh : h.val < 2112
  · rw [dif_pos hh, dif_pos hh]
  · rw [dif_neg hh, dif_neg hh]; exact padValue_eq _

/-! ## What the region finds in the five padded weight buffers -/

/-- The memory columns of the padded first-layer weights, transposed: entry `(k, h)` is `W1 (h, k)` while `h < 2112`. -/
theorem V_W1a (k : Fin 64) (h : Fin 2176) :
    (V m c main_v20 : S64x2176.Idx → EReal) (ix2 k h)
      = Cert.Layer.padded (fun h' => (Cert.Layer.kargs m c).W1 (ix2 h' ⟨k.val, by omega⟩)) h := by
  have e : (V m c main_v20 : S64x2176.Idx → EReal)
      = truncf .bf16 (transpose S64x2176 [1, 0]
          (extractStridedSlice S2176x64 ![0, 0]
            (pad S2176x4224 ![0, 0] ![64, 0] ![0, 0] (m ((c : Thread nD τ).loc main_arg5) : S2112x4224.Idx → EReal)
              (sitofp .f32 (constantI S_ 32 0#32) : FVec Ideal S_ .f32) pads_S2112x4224_S2176x4224_0640_000 h_S_)
            slices_S2176x4224_S2176x64_0_0) transposes_S2176x64_S64x2176_1_0) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  refine (congrFun e (ix2 k h)).trans ?_
  refine (truncf_apply _ bitsLt_bf16_f32 (ix2 k h)).trans ?_
  refine (transpose_ab_ba_apply _ transposes_S2176x64_S64x2176_1_0 k h).trans ?_
  refine (Cert.HostRead.cols_apply 0 slices_S2176x4224_S2176x64_0_0 _ h k (by omega)).trans ?_
  refine (padRows_apply _ h _).trans ?_
  exact congrArg (fun i : Fin 4224 => Cert.Layer.padded (fun h' => (Cert.Layer.kargs m c).W1 (ix2 h' i)) h)
    (Fin.ext (Nat.zero_add k.val))

/-- The OD columns of the padded first-layer weights, transposed: entry `(k, h)` is `W1 (h, 64 + k)` while `h < 2112`. -/
theorem V_W1b (k : Fin 4096) (h : Fin 2176) :
    (V m c main_v23 : S4096x2176.Idx → EReal) (ix2 k h)
      = Cert.Layer.padded (fun h' => (Cert.Layer.kargs m c).W1 (ix2 h' ⟨64 + k.val, by omega⟩)) h := by
  have e : (V m c main_v23 : S4096x2176.Idx → EReal)
      = truncf .bf16 (transpose S4096x2176 [1, 0]
          (extractStridedSlice S2176x4096 ![0, 64]
            (pad S2176x4224 ![0, 0] ![64, 0] ![0, 0] (m ((c : Thread nD τ).loc main_arg5) : S2112x4224.Idx → EReal)
              (sitofp .f32 (constantI S_ 32 0#32) : FVec Ideal S_ .f32) pads_S2112x4224_S2176x4224_0640_000 h_S_)
            slices_S2176x4224_S2176x4096_0_64) transposes_S2176x4096_S4096x2176_1_0) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  refine (congrFun e (ix2 k h)).trans ?_
  refine (truncf_apply _ bitsLt_bf16_f32 (ix2 k h)).trans ?_
  refine (transpose_ab_ba_apply _ transposes_S2176x4096_S4096x2176_1_0 k h).trans ?_
  refine (Cert.HostRead.cols_apply 64 slices_S2176x4224_S2176x4096_0_64 _ h k (by omega)).trans ?_
  exact padRows_apply _ h _

/-- The walk columns of the padded first-layer weights, transposed: entry `(k, h)` is `W1 (h, 4160 + k)` while
    `h < 2112`. -/
theorem V_W1c (k : Fin 64) (h : Fin 2176) :
    (V m c main_v26 : S64x2176.Idx → EReal) (ix2 k h)
      = Cert.Layer.padded (fun h' => (Cert.Layer.kargs m c).W1 (ix2 h' ⟨4160 + k.val, by omega⟩)) h := by
  have e : (V m c main_v26 : S64x2176.Idx → EReal)
      = truncf .bf16 (transpose S64x2176 [1, 0]
          (extractStridedSlice S2176x64 ![0, 4160]
            (pad S2176x4224 ![0, 0] ![64, 0] ![0, 0] (m ((c : Thread nD τ).loc main_arg5) : S2112x4224.Idx → EReal)
              (sitofp .f32 (constantI S_ 32 0#32) : FVec Ideal S_ .f32) pads_S2112x4224_S2176x4224_0640_000 h_S_)
            slices_S2176x4224_S2176x64_0_4160) transposes_S2176x64_S64x2176_1_0) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  refine (congrFun e (ix2 k h)).trans ?_
  refine (truncf_apply _ bitsLt_bf16_f32 (ix2 k h)).trans ?_
  refine (transpose_ab_ba_apply _ transposes_S2176x64_S64x2176_1_0 k h).trans ?_
  refine (Cert.HostRead.cols_apply 4160 slices_S2176x4224_S2176x64_0_4160 _ h k (by omega)).trans ?_
  exact padRows_apply _ h _

/-- The padded first-layer bias as a one-row matrix: entry `(0, h)` is `b1 h` while `h < 2112`. -/
theorem V_b1 (h : Fin 2176) :
    (V m c main_v37 : S1x2176.Idx → EReal) (ix2 0 h)
      = Cert.Layer.padded (fun h' => (Cert.Layer.kargs m c).b1 (ix1 h')) h := by
  have e : (V m c main_v37 : S1x2176.Idx → EReal)
      = shapeCast S1x2176
          (pad S2176 ![0] ![64] ![0] (m ((c : Thread nD τ).loc main_arg6) : S2112.Idx → EReal)
            (sitofp .f32 (constantI S_ 32 0#32) : FVec Ideal S_ .f32) pads_S2112_S2176_0640 h_S_)
          shapeCasts_S2176_S1x2176 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  refine (congrFun e (ix2 0 h)).trans ?_
  refine (shapeCast_addUnit_apply ![2176] _ shapeCasts_S2176_S1x2176 (ix2 0 h)).trans ?_
  refine Eq.trans (congrArg _ (funext fun a => ?_)) (padVec_apply _ h)
  match a with
  | ⟨0, _⟩ => rfl

/-- The padded second-layer weights, transposed: entry `(h, j)` is `W2 (j, h)` while `h < 2112`. -/
theorem V_W2 (h : Fin 2176) (j : Fin 64) :
    (V m c main_v28 : S2176x64.Idx → EReal) (ix2 h j)
      = Cert.Layer.padded (fun h' => (Cert.Layer.kargs m c).W2 (ix2 j h')) h := by
  have e : (V m c main_v28 : S2176x64.Idx → EReal)
      = truncf .bf16 (transpose S2176x64 [1, 0]
          (pad S64x2176 ![0, 0] ![0, 64] ![0, 0] (m ((c : Thread nD τ).loc main_arg7) : S64x2112.Idx → EReal)
            (sitofp .f32 (constantI S_ 32 0#32) : FVec Ideal S_ .f32) pads_S64x2112_S64x2176_000_0640 h_S_)
          transposes_S64x2176_S2176x64_1_0) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  refine (congrFun e (ix2 h j)).trans ?_
  refine (truncf_apply _ bitsLt_bf16_f32 (ix2 h j)).trans ?_
  refine (transpose_ab_ba_apply _ transposes_S64x2176_S2176x64_1_0 h j).trans ?_
  exact padCols_apply _ j h

/-! ## The pooled walk embedding -/

set_option maxHeartbeats 2000000 in
/-- The walk-embedding buffer holds the pooled walk embedding of the launched memories, walks, projection and bias: both
    programs compute it before anything else by the same host operations of the same four arguments (wrap the negative
    walk entries, gather the memory rows, sum over the walk and divide by its length, multiply by the transposed
    projection, add the bias), so the two composed terms agree stage by stage. -/
theorem V_rw : (V m c main_v14 : S4096x64.Idx → EReal) = (Cert.Layer.kargs m c).rw := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  show _ = Cert.ReferenceIdeal.Read.val_main_v14 (F := Ideal) (m ((c : Thread nD τ).loc main_arg0))
    (m ((c : Thread nD τ).loc main_arg2)) (m ((c : Thread nD τ).loc main_arg3)) (m ((c : Thread nD τ).loc main_arg4))
  simp only [Cert.ReferenceIdeal.Read.val_main_v14, Cert.ReferenceIdeal.Read.val_main_v13,
    Cert.ReferenceIdeal.Read.val_main_v12, Cert.ReferenceIdeal.Read.val_main_v11, Cert.ReferenceIdeal.Read.val_main_v10,
    Cert.ReferenceIdeal.Read.val_main_v9, Cert.ReferenceIdeal.Read.val_main_v8, Cert.ReferenceIdeal.Read.val_main_cst_1,
    Cert.ReferenceIdeal.Read.val_main_v7, Cert.ReferenceIdeal.Read.val_main_cst, Cert.ReferenceIdeal.Read.val_main_v6,
    Cert.ReferenceIdeal.Read.val_main_v5, Cert.ReferenceIdeal.Read.val_main_v4, Cert.ReferenceIdeal.Read.val_main_v3,
    Cert.ReferenceIdeal.Read.val_main_v2, Cert.ReferenceIdeal.Read.val_main_c_0, Cert.ReferenceIdeal.Read.val_main_v1,
    Cert.ReferenceIdeal.Read.val_main_v0, Cert.ReferenceIdeal.Read.val_main_c]
  rfl

end Cert.Layer.Host

end
-- ==== Proof.KernelHostPlain.lean ====
/-
  What the region finds in the nine weight and bias buffers that the host only transposes or reshapes.

  Before its one region the program transposes each of the four weight matrices Wi, Wh, Wp1, Wp2 and changes the
  float format of the result, and it reshapes each of the five bias lists b2, bi, bh, bp1, bp2 of length n into a
  one-row matrix [1, n]. On the extended reals a change of float format is the identity, so the region finds, in a
  weight's buffer, the transposed matrix: entry (p, q) is the argument's entry (q, p); and in a bias's buffer the
  row whose entry (0, q) is the argument's entry q. No host operation writes an argument array, so each is read as
  launched.
-/
import proofs.«174440_j58033598104174_2_alg».proof.Proof.Gen.KernelIdeal.Frame
import proofs.«174440_j58033598104174_2_alg».proof.Proof.KArgs
import proofs.«174440_j58033598104174_2_alg».proof.Proof.LibMatmulRead
import Idealize.ShloMosaic.Lib.ValueLayout

noncomputable section

open scoped BigOperators

namespace Cert.Layer.Host

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (c : Dev nD)

/-! ## The bias rows and the transposed weights

Each lemma first names what the host operations leave in ONE buffer, as a term over the launched argument, and then
reads that term at an index. -/

/-- The message layer's output bias, as a row: entry (0, j) is b2's entry j. -/
theorem V_b2 (j : Fin 64) :
    (V m c main_v38 : S1x64.Idx → EReal) (ix2 0 j) = (Cert.Layer.kargs m c).b2 (ix1 j) := by
  have hV : (V m c main_v38 : S1x64.Idx → EReal)
      = shapeCast S1x64 (m ((c : Thread nD τ).loc main_arg8) : S64.Idx → EReal) shapeCasts_S64_S1x64 := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
    rfl
  rw [hV]
  exact shapeCast_a_1a_apply _ _ 0 j

/-- The input-side gate weights, transposed: entry (j, g) is Wi's entry (g, j). -/
theorem V_Wi (j : Fin 64) (g : Fin 192) :
    (V m c main_v30 : S64x192.Idx → EReal) (ix2 j g) = (Cert.Layer.kargs m c).Wi (ix2 g j) := by
  have hV : (V m c main_v30 : S64x192.Idx → EReal)
      = (truncf .bf16 (transpose S64x192 [1, 0] (m ((c : Thread nD τ).loc main_arg9) : FVec Ideal S192x64 .f32)
          transposes_S192x64_S64x192_1_0) bitsLt_bf16_f32 : FVec Ideal S64x192 .bf16) := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
  rw [hV]
  exact transpose_ab_ba_apply _ transposes_S192x64_S64x192_1_0 j g

/-- The input-side gate bias, as a row: entry (0, g) is bi's entry g. -/
theorem V_bi (g : Fin 192) :
    (V m c main_v39 : S1x192.Idx → EReal) (ix2 0 g) = (Cert.Layer.kargs m c).bi (ix1 g) := by
  have hV : (V m c main_v39 : S1x192.Idx → EReal)
      = shapeCast S1x192 (m ((c : Thread nD τ).loc main_arg10) : S192.Idx → EReal) shapeCasts_S192_S1x192 := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
    rfl
  rw [hV]
  exact shapeCast_a_1a_apply _ _ 0 g

/-- The memory-side gate weights, transposed: entry (j, g) is Wh's entry (g, j). -/
theorem V_Wh (j : Fin 64) (g : Fin 192) :
    (V m c main_v32 : S64x192.Idx → EReal) (ix2 j g) = (Cert.Layer.kargs m c).Wh (ix2 g j) := by
  have hV : (V m c main_v32 : S64x192.Idx → EReal)
      = (truncf .bf16 (transpose S64x192 [1, 0] (m ((c : Thread nD τ).loc main_arg11) : FVec Ideal S192x64 .f32)
          transposes_S192x64_S64x192_1_0) bitsLt_bf16_f32 : FVec Ideal S64x192 .bf16) := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
  rw [hV]
  exact transpose_ab_ba_apply _ transposes_S192x64_S64x192_1_0 j g

/-- The memory-side gate bias, as a row: entry (0, g) is bh's entry g. -/
theorem V_bh (g : Fin 192) :
    (V m c main_v40 : S1x192.Idx → EReal) (ix2 0 g) = (Cert.Layer.kargs m c).bh (ix1 g) := by
  have hV : (V m c main_v40 : S1x192.Idx → EReal)
      = shapeCast S1x192 (m ((c : Thread nD τ).loc main_arg12) : S192.Idx → EReal) shapeCasts_S192_S1x192 := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
    rfl
  rw [hV]
  exact shapeCast_a_1a_apply _ _ 0 g

/-- The prediction layer's first weights, transposed: entry (d, e) is Wp1's entry (e, d). -/
theorem V_Wp1 (d : Fin 64) (e : Fin 64) :
    (V m c main_v34 : S64x64.Idx → EReal) (ix2 d e) = (Cert.Layer.kargs m c).Wp1 (ix2 e d) := by
  have hV : (V m c main_v34 : S64x64.Idx → EReal)
      = (truncf .bf16 (transpose S64x64 [1, 0] (m ((c : Thread nD τ).loc main_arg13) : FVec Ideal S64x64 .f32)
          transposes_S64x64_S64x64_1_0) bitsLt_bf16_f32 : FVec Ideal S64x64 .bf16) := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
  rw [hV]
  exact transpose_ab_ba_apply _ transposes_S64x64_S64x64_1_0 d e

/-- The prediction layer's first bias, as a row: entry (0, e) is bp1's entry e. -/
theorem V_bp1 (e : Fin 64) :
    (V m c main_v41 : S1x64.Idx → EReal) (ix2 0 e) = (Cert.Layer.kargs m c).bp1 (ix1 e) := by
  have hV : (V m c main_v41 : S1x64.Idx → EReal)
      = shapeCast S1x64 (m ((c : Thread nD τ).loc main_arg14) : S64.Idx → EReal) shapeCasts_S64_S1x64 := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
    rfl
  rw [hV]
  exact shapeCast_a_1a_apply _ _ 0 e

/-- The prediction layer's second weights, transposed: entry (e, j) is Wp2's entry (j, e). -/
theorem V_Wp2 (e : Fin 64) (j : Fin 4096) :
    (V m c main_v36 : S64x4096.Idx → EReal) (ix2 e j) = (Cert.Layer.kargs m c).Wp2 (ix2 j e) := by
  have hV : (V m c main_v36 : S64x4096.Idx → EReal)
      = (truncf .bf16 (transpose S64x4096 [1, 0] (m ((c : Thread nD τ).loc main_arg15) : FVec Ideal S4096x64 .f32)
          transposes_S4096x64_S64x4096_1_0) bitsLt_bf16_f32 : FVec Ideal S64x4096 .bf16) := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
  rw [hV]
  exact transpose_ab_ba_apply _ transposes_S4096x64_S64x4096_1_0 e j

/-- The prediction layer's second bias, as a row: entry (0, j) is bp2's entry j. -/
theorem V_bp2 (j : Fin 4096) :
    (V m c main_v42 : S1x4096.Idx → EReal) (ix2 0 j) = (Cert.Layer.kargs m c).bp2 (ix1 j) := by
  have hV : (V m c main_v42 : S1x4096.Idx → EReal)
      = shapeCast S1x4096 (m ((c : Thread nD τ).loc main_arg16) : S4096.Idx → EReal) shapeCasts_S4096_S1x4096 := by
    dsimp only [Gen.V]
    simp only [Gen.hostOps0, Gen.hostOps0_1, Gen.hostOps0_2, Gen.hostOps0_3, Gen.hostOps0_4, Gen.hostOps0_5,
      Gen.hostOps0_6, List.flatten_cons, List.flatten_nil, List.append_nil, List.cons_append, List.nil_append]
    after_results_simp
    rfl
  rw [hV]
  exact shapeCast_a_1a_apply _ _ 0 j

end Cert.Layer.Host

end
-- ==== Proof.Blocks.lean ====
/-
  From the 32 row blocks to the whole result array.

  Grid point t stages rows 128 t .. 128 t + 127 of the memories, of the OD matrix and of the pooled walk embedding, and
  every weight and bias array whole; it writes back rows 128 t .. 128 t + 127 of the result. Entry (p, q) of what point
  t writes back is therefore the layer's result at (128 t + p, q): the body's arithmetic at an entry, fed the staged
  rows and the weight arrays as the host prepared them (transposed, and on the hidden axis continued by zeros). The 32
  blocks tile the 4096 rows, so after the run the result array is the layer's result of the argument arrays.
-/
import proofs.«174440_j58033598104174_2_alg».proof.Proof.BlockReads
import proofs.«174440_j58033598104174_2_alg».proof.Proof.KernelBody
import proofs.«174440_j58033598104174_2_alg».proof.Proof.KernelHostPad
import proofs.«174440_j58033598104174_2_alg».proof.Proof.KernelHostPlain

set_option maxRecDepth 16384

noncomputable section

namespace Cert.Layer.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's arithmetic on point t's blocks, at entry (p, q), is the layer's result at row 128 t + p, column q. -/
theorem body_at (c : Dev nD) (t : Fin cfg0.N) (p : Fin 128) (q : Fin 4096) :
    k0_pay1 (k0_pay3 (iblk m c 0 t) (k0_pay2 (iblk m c 0 t) (iblk m c 2 t) (iblk m c 1 t) (iblk m c 3 t) (iblk m c 5 t) (iblk m c 4 t) (iblk m c 6 t) (iblk m c 7 t) (iblk m c 8 t)) (iblk m c 9 t) (iblk m c 10 t) (iblk m c 11 t) (iblk m c 12 t) (iblk m c 13 t) (iblk m c 14 t)) (iblk m c 15 t) (iblk m c 16 t) (ix2 p q)
      = Cert.Layer.out (Cert.Layer.kargs m c) (rowOf t p) q :=
  Cert.Layer.Body.body_apply (Cert.Layer.kargs m c) (rowOf t p) p (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (fun k => (read0 m c t p k).trans (congrFun (V_main_arg0 m c) _))
    (fun k => (read1 m c t p k).trans (congrFun (V_main_arg1 m c) _))
    (fun k => (read2 m c t p k).trans (congrFun (Cert.Layer.Host.V_rw m c) _))
    (fun k h => (read3 m c t k h).trans (Cert.Layer.Host.V_W1a m c k h))
    (fun k h => (read4 m c t k h).trans (Cert.Layer.Host.V_W1b m c k h))
    (fun k h => (read5 m c t k h).trans (Cert.Layer.Host.V_W1c m c k h))
    (fun h => (read6 m c t 0 h).trans (Cert.Layer.Host.V_b1 m c h))
    (fun h j => (read7 m c t h j).trans (Cert.Layer.Host.V_W2 m c h j))
    (fun j => (read8 m c t 0 j).trans (Cert.Layer.Host.V_b2 m c j))
    (fun j g => (read9 m c t j g).trans (Cert.Layer.Host.V_Wi m c j g))
    (fun g => (read10 m c t 0 g).trans (Cert.Layer.Host.V_bi m c g))
    (fun j g => (read11 m c t j g).trans (Cert.Layer.Host.V_Wh m c j g))
    (fun g => (read12 m c t 0 g).trans (Cert.Layer.Host.V_bh m c g))
    (fun d e => (read13 m c t d e).trans (Cert.Layer.Host.V_Wp1 m c d e))
    (fun e => (read14 m c t 0 e).trans (Cert.Layer.Host.V_bp1 m c e))
    (fun e j => (read15 m c t e j).trans (Cert.Layer.Host.V_Wp2 m c e j))
    (fun j => (read16 m c t 0 j).trans (Cert.Layer.Host.V_bp2 m c j))
    q

/-- What point t writes back is block t of the layer's result of the argument arrays. -/
theorem flushed_eq (c : Dev nD) (t : Fin cfg0.N) :
    (dats m 0 c).flushed 17 t
      = ((cfg0.win 17).blk t).view.read (Elt Ideal) (Cert.Layer.G (Cert.Layer.kargs m c)) := by
  rw [Cert.KernelIdeal.Value.flushed17]
  unfold out0_17
  rw [View.canon_unit_zero origin]
  simp only [View.ld_unit_zero (S := S128x64) origin, View.ld_unit_zero (S := S128x4096) origin, View.ld_unit_zero (S := S64x2176) origin, View.ld_unit_zero (S := S4096x2176) origin, View.ld_unit_zero (S := S1x2176) origin, View.ld_unit_zero (S := S2176x64) origin, View.ld_unit_zero (S := S1x64) origin, View.ld_unit_zero (S := S64x192) origin, View.ld_unit_zero (S := S1x192) origin, View.ld_unit_zero (S := S64x64) origin, View.ld_unit_zero (S := S64x4096) origin, View.ld_unit_zero (S := S1x4096) origin]
  funext j
  obtain ⟨p, q, rfl⟩ : ∃ (p : Fin 128) (q : Fin 4096), j = ix2 p q := ⟨j 0, j 1, eq_ix2 j⟩
  show k0_pay1 (k0_pay3 (iblk m c 0 t) (k0_pay2 (iblk m c 0 t) (iblk m c 2 t) (iblk m c 1 t) (iblk m c 3 t) (iblk m c 5 t) (iblk m c 4 t) (iblk m c 6 t) (iblk m c 7 t) (iblk m c 8 t)) (iblk m c 9 t) (iblk m c 10 t) (iblk m c 11 t) (iblk m c 12 t) (iblk m c 13 t) (iblk m c 14 t)) (iblk m c 15 t) (iblk m c 16 t) (ix2 p q)
      = Cert.Layer.G (Cert.Layer.kargs m c) (((cfg0.win 17).blk t).view.emb (ix2 p q))
  rw [out_emb, Cert.Layer.G_ix2]
  exact body_at m c t p q

/-- After the run the result array is the layer's result of the argument arrays. -/
theorem final (c : Dev nD) : (dats m 0 c).arrAt 17 cfg0.N = Cert.Layer.G (Cert.Layer.kargs m c) :=
  (dats m 0 c).arrAt_eq_of_cover 17 (Cert.Layer.G (Cert.Layer.kargs m c)) (fun t _ => flushed_eq m c t) out_cover

/-- The kernel's run: every weakly fair execution ends with the result array at the layer's result of the argument
    arrays and the argument arrays as launched. -/
theorem run : θ_run defs (onTc (τ := τ) (main (F := Ideal))) ⟨m, fun _ => 0, ρ⟩ fun r => ∀ c : Dev nD,
      r.2.mem ((c : Thread nD τ).loc main_v43) = Cert.Layer.G (Cert.Layer.kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Cert.KernelIdeal.Value.run_blocks m ρ)

end Cert.Layer.Blocks

end
-- ==== Proof.LibBridgeRead.lean ====
/-
  Host operations of a stacked-weight message network read at an index given by its coordinates.

  Each statement takes one host operation (or a short chain of them) at literal ranks and says which entry of the
  operand the entry at the named coordinates is:
    • a layer of a stack — the slice [1, a, B] of [L, A, B] at offsets (l, o, 0), its unit axis dropped — reads at (k, j)
      the stack at (l, o + k, j); likewise a row of a stack of vectors;
    • the maximum with the broadcast zero literal is the maximum with that literal;
    • three arrays laid side by side along axis 1 read, at a column, the piece that holds the column;
    • two columns laid side by side and flattened interleave their entries; a flat list broadcast to a column reads its entry;
    • 1600000 rows of 64 columns re-read as 800000 rows of 128 put rows 2 p and 2 p + 1 side by side in row p;
    • the wrap of a negative entry by a table height is one function of the 32-bit entry.
-/
import Idealize.ShloMosaic.PureOps.Ideal.Laws
import Idealize.ShloMosaic.Lib.Pipeline.Value
import Idealize.ShloMosaic.Lib.ValueIdx

noncomputable section

open scoped BigOperators

namespace Cert.BridgeRead

open Idealize.ShloMosaic Idealize.ShloMosaic.ValueIdx

variable {α : Type}

/-! ### A layer of a stack -/

/-- Rows o .. o + a − 1 of layer l of a stack [L, A, B]: the slice [1, a, B] at (l, o, 0) with the unit axis dropped reads
    at (k, j) the stack at (l, o + k, j). -/
theorem slice3_drop_apply {L A B a l o : Nat} (W : (⟨3, ![L, A, B]⟩ : Shape).Idx → α)
    (hs : (⟨3, ![L, A, B]⟩ : Shape).Slices ![l, o, 0] ⟨3, ![1, a, B]⟩)
    (hc : (⟨3, ![1, a, B]⟩ : Shape).ShapeCasts ⟨2, ![a, B]⟩) (hl : l < L) (k : Fin a) (ho : o + k.val < A) (j : Fin B) :
    shapeCast ⟨2, ![a, B]⟩ (extractStridedSlice ⟨3, ![1, a, B]⟩ ![l, o, 0] W hs) hc (ix2 k j)
      = W (ix3 ⟨l, hl⟩ ⟨o + k.val, ho⟩ j) := by
  refine (shapeCast_dropUnit_apply ![a, B] _ hc (ix2 k j)).trans ?_
  refine extractStridedSlice_apply ![l, o, 0] W hs _ _ fun ax => ?_
  match ax with
  | ⟨0, _⟩ => rfl
  | ⟨1, _⟩ => rfl
  | ⟨2, _⟩ => show j.val = 0 + j.val; omega

/-- Row l of a stack [L, B] of vectors: the slice [1, B] at (l, 0) with the unit axis dropped reads at j the stack at (l, j). -/
theorem slice2_drop_apply {L B l : Nat} (b : (⟨2, ![L, B]⟩ : Shape).Idx → α)
    (hs : (⟨2, ![L, B]⟩ : Shape).Slices ![l, 0] ⟨2, ![1, B]⟩)
    (hc : (⟨2, ![1, B]⟩ : Shape).ShapeCasts ⟨1, ![B]⟩) (hl : l < L) (j : Fin B) :
    shapeCast ⟨1, ![B]⟩ (extractStridedSlice ⟨2, ![1, B]⟩ ![l, 0] b hs) hc (ix1 j) = b (ix2 ⟨l, hl⟩ j) := by
  refine (shapeCast_dropUnit_apply ![B] _ hc (ix1 j)).trans ?_
  refine extractStridedSlice_apply ![l, 0] b hs _ _ fun ax => ?_
  match ax with
  | ⟨0, _⟩ => rfl
  | ⟨1, _⟩ => show j.val = 0 + j.val; omega

/-! ### Broadcasts -/

/-- A flat list broadcast to a column reads at (p, 0) its entry p. -/
theorem column_bcast_apply {P : Nat} (v : (⟨1, ![P]⟩ : Shape).Idx → α)
    (h : (⟨1, ![P]⟩ : Shape).BroadcastsInDim ⟨2, ![P, 1]⟩ (![0] : Fin 1 → Fin 2)) (p : Fin P) :
    broadcastInDim ⟨2, ![P, 1]⟩ ![0] h v (ix2 p 0) = v (ix1 p) := by
  refine broadcastInDim_apply _ h v (ix2 p 0) (ix1 p) fun ax => ?_
  match ax with
  | ⟨0, _⟩ =>
    show p.val = if P = 1 then 0 else p.val
    have := p.isLt
    split <;> omega

/-- The maximum with the broadcast of the zero literal, at an index. -/
theorem relu_apply {s : Shape} (x : FVec Ideal s .f32)
    (h0 : (⟨0, ![]⟩ : Shape).BroadcastsInDim s (![] : Fin 0 → Fin s.rank)) (i : s.Idx) :
    maximumf x (broadcastInDim s ![] h0 (constant (F := Ideal) ⟨0, ![]⟩ .f32 0x00000000#32)) i
      = max (x i) (Ideal.ofBits .f32 0x00000000#32) := rfl

/-! ### Pieces laid side by side -/

section Concat3
variable {E n₁ n₂ n₃ n : Nat} (x₁ : (⟨2, ![E, n₁]⟩ : Shape).Idx → α) (x₂ : (⟨2, ![E, n₂]⟩ : Shape).Idx → α)
  (x₃ : (⟨2, ![E, n₃]⟩ : Shape).Idx → α)
  (h : Shape.Concatenates [(⟨2, ![E, n₁]⟩ : Shape), ⟨2, ![E, n₂]⟩, ⟨2, ![E, n₃]⟩] ⟨2, ![E, n]⟩ 1)

/-- Three arrays side by side along axis 1, at a column of the first. -/
theorem concat3_apply_fst (p : Fin E) (c : Fin n) (hc : c.val < n₁) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₁ (ix2 p ⟨c.val, hc⟩) := by
  refine concatenate_apply_piece 1 [⟨⟨2, ![E, n₁]⟩, x₁⟩, ⟨⟨2, ![E, n₂]⟩, x₂⟩, ⟨⟨2, ![E, n₃]⟩, x₃⟩] h (ix2 p c) 0 (by show 0 < 3; omega) _ x₁ rfl rfl 0 rfl (ix2 p ⟨c.val, hc⟩) (fun b => ?_) ?_
  · match b with
    | ⟨0, _⟩ => exact fun _ => rfl
    | ⟨1, _⟩ => exact fun hne => absurd rfl hne
  · show 0 + c.val = c.val; omega

/-- Three arrays side by side along axis 1, at a column of the second. -/
theorem concat3_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₂ (ix2 p ⟨c.val - n₁, h2⟩) := by
  refine concatenate_apply_piece 1 [⟨⟨2, ![E, n₁]⟩, x₁⟩, ⟨⟨2, ![E, n₂]⟩, x₂⟩, ⟨⟨2, ![E, n₃]⟩, x₃⟩] h (ix2 p c) 1 (by show 1 < 3; omega) _ x₂ rfl rfl n₁ rfl (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Three arrays side by side along axis 1, at a column of the third. -/
theorem concat3_apply_trd (p : Fin E) (c : Fin n) (h1 : n₁ + n₂ ≤ c.val) (h2 : c.val - (n₁ + n₂) < n₃) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₃ (ix2 p ⟨c.val - (n₁ + n₂), h2⟩) := by
  refine concatenate_apply_piece 1 [⟨⟨2, ![E, n₁]⟩, x₁⟩, ⟨⟨2, ![E, n₂]⟩, x₂⟩, ⟨⟨2, ![E, n₃]⟩, x₃⟩] h (ix2 p c) 2 (by show 2 < 3; omega) _ x₃ rfl rfl (n₁ + n₂) rfl (ix2 p ⟨c.val - (n₁ + n₂), h2⟩) (fun b => ?_) ?_
  · match b with
    | ⟨0, _⟩ => exact fun _ => rfl
    | ⟨1, _⟩ => exact fun hne => absurd rfl hne
  · show n₁ + n₂ + (c.val - (n₁ + n₂)) = c.val; omega

end Concat3

/-! ### Two columns interleaved, and rows re-read in pairs -/

section Concat2
variable {E : Nat} (x₁ x₂ : (⟨2, ![E, 1]⟩ : Shape).Idx → α)
  (h : Shape.Concatenates [(⟨2, ![E, 1]⟩ : Shape), ⟨2, ![E, 1]⟩] ⟨2, ![E, 2]⟩ 1)

/-- Two columns side by side, at column 0: the first. -/
theorem concat2_cols_apply_fst (p : Fin E) :
    concatenate ⟨2, ![E, 2]⟩ 1 [⟨⟨2, ![E, 1]⟩, x₁⟩, ⟨⟨2, ![E, 1]⟩, x₂⟩] h (ix2 p 0) = x₁ (ix2 p 0) := by
  refine concatenate_apply_piece 1 [⟨⟨2, ![E, 1]⟩, x₁⟩, ⟨⟨2, ![E, 1]⟩, x₂⟩] h (ix2 p 0) 0 (by show 0 < 2; omega) _ x₁ rfl rfl 0 rfl
    (ix2 p 0) (fun b => ?_) rfl
  match b with
  | ⟨0, _⟩ => exact fun _ => rfl
  | ⟨1, _⟩ => exact fun hne => absurd rfl hne

/-- Two columns side by side, at column 1: the second. -/
theorem concat2_cols_apply_snd (p : Fin E) :
    concatenate ⟨2, ![E, 2]⟩ 1 [⟨⟨2, ![E, 1]⟩, x₁⟩, ⟨⟨2, ![E, 1]⟩, x₂⟩] h (ix2 p 1) = x₂ (ix2 p 0) := by
  refine concatenate_apply_piece 1 [⟨⟨2, ![E, 1]⟩, x₁⟩, ⟨⟨2, ![E, 1]⟩, x₂⟩] h (ix2 p 1) 1 (by show 1 < 2; omega) _ x₂ rfl rfl 1 rfl
    (ix2 p 0) (fun b => ?_) rfl
  match b with
  | ⟨0, _⟩ => exact fun _ => rfl
  | ⟨1, _⟩ => exact fun hne => absurd rfl hne

end Concat2

/-- An [800000, 2] array flattened: entry 2 p + c of the flat list is entry (p, c). -/
theorem reshape_interleave_apply (x : (⟨2, ![800000, 2]⟩ : Shape).Idx → α)
    (h : (⟨2, ![800000, 2]⟩ : Shape).ShapeCasts ⟨1, ![1600000]⟩) (p : Fin 800000) (c : Fin 2) :
    shapeCast ⟨1, ![1600000]⟩ x h (ix1 ⟨2 * p.val + c.val, by omega⟩) = x (ix2 p c) := by
  refine shapeCast_apply x h _ _ ?_
  rw [Shape.rowMajor_val_two, Shape.rowMajor_val_one]
  show p.val * 2 + c.val = 2 * p.val + c.val
  omega

/-- 1600000 rows of 64 columns re-read as 800000 rows of 128: entry (p, k) is row 2 p + k / 64, column k % 64. -/
theorem reshape_rowpairs_apply (x : (⟨2, ![1600000, 64]⟩ : Shape).Idx → α)
    (h : (⟨2, ![1600000, 64]⟩ : Shape).ShapeCasts ⟨2, ![800000, 128]⟩) (p : Fin 800000) (k : Fin 128) :
    shapeCast ⟨2, ![800000, 128]⟩ x h (ix2 p k)
      = x (ix2 ⟨2 * p.val + k.val / 64, by omega⟩ ⟨k.val % 64, by omega⟩) := by
  refine shapeCast_apply x h _ _ ?_
  rw [Shape.rowMajor_val_two, Shape.rowMajor_val_two]
  show (2 * p.val + k.val / 64) * 64 + k.val % 64 = p.val * 128 + k.val
  omega

/-! ### Start indices -/

/-- A start index as the host computes it from a node number: a negative 32-bit entry moved up by the table height. -/
def wrapW (N w : BitVec 32) : BitVec 32 := Scalar.select (IntOp.cmpi .slt w 0#32) (IntOp.addi w N) w

/-- The column of start indices made from a flat list of node numbers reads, at (p, 0), the wrap of entry p. -/
theorem start_apply {P : Nat} (N : BitVec 32) (v : IVec ⟨1, ![P]⟩ 32)
    (h0 : (⟨0, ![]⟩ : Shape).BroadcastsInDim ⟨1, ![P]⟩ (![] : Fin 0 → Fin 1))
    (hb : (⟨1, ![P]⟩ : Shape).BroadcastsInDim ⟨2, ![P, 1]⟩ (![0] : Fin 1 → Fin 2)) (p : Fin P) :
    broadcastInDim ⟨2, ![P, 1]⟩ ![0] hb
        (select (cmpi .slt v (broadcastInDim ⟨1, ![P]⟩ ![] h0 (constantI ⟨0, ![]⟩ 32 0#32)))
          (addi v (broadcastInDim ⟨1, ![P]⟩ ![] h0 (constantI ⟨0, ![]⟩ 32 N))) v) (ix2 p 0)
      = wrapW N (v (ix1 p)) :=
  column_bcast_apply _ hb p

end Cert.BridgeRead

end
-- ==== Proof.RefIsLayer.lean ====
/-
  The reference program computes the layer's specification.

  The reference is a chain of host operations; each stage of it is read here at explicit coordinates (i, j) and
  identified with the matching stage of the specification: the hidden pre-activation (a product over the 4224
  columns of the joined row (memory | OD row | walk embedding), cut into its three stretches), the relu, the
  message, the two gate pre-activations and their thirds, the reset and update gates (the logistic written out as
  1 / (1 + exp (−x))), the candidate, the updated memory, the prediction layer's hidden units and the result.
  The pooled walk embedding stays one closed function of the arguments throughout.
-/
import proofs.«174440_j58033598104174_2_alg».proof.Proof.Gen.ReferenceIdeal.Read
import proofs.«174440_j58033598104174_2_alg».proof.Proof.Spec
import proofs.«174440_j58033598104174_2_alg».proof.Proof.LibBridgeRead
import proofs.«174440_j58033598104174_2_alg».proof.Proof.LibHostRead

noncomputable section

open scoped BigOperators

namespace Cert.Layer.Ref

open Cert.ReferenceIdeal Cert.ReferenceIdeal.Gen Cert.ReferenceIdeal.Read Idealize.ShloMosaic Idealize.ShloMosaic.ValueIdx

variable (x0 : (⟨S4096x64, .f32⟩ : BufTy).Contents (Elt Ideal)) (x1 : (⟨S4096x4096, .f32⟩ : BufTy).Contents (Elt Ideal))
  (x2 : (⟨S4096x8, .i32⟩ : BufTy).Contents (Elt Ideal)) (x3 : (⟨S64x64, .f32⟩ : BufTy).Contents (Elt Ideal))
  (x4 : (⟨S64, .f32⟩ : BufTy).Contents (Elt Ideal)) (x5 : (⟨S2112x4224, .f32⟩ : BufTy).Contents (Elt Ideal))
  (x6 : (⟨S2112, .f32⟩ : BufTy).Contents (Elt Ideal)) (x7 : (⟨S64x2112, .f32⟩ : BufTy).Contents (Elt Ideal))
  (x8 : (⟨S64, .f32⟩ : BufTy).Contents (Elt Ideal)) (x9 : (⟨S192x64, .f32⟩ : BufTy).Contents (Elt Ideal))
  (x10 : (⟨S192, .f32⟩ : BufTy).Contents (Elt Ideal)) (x11 : (⟨S192x64, .f32⟩ : BufTy).Contents (Elt Ideal))
  (x12 : (⟨S192, .f32⟩ : BufTy).Contents (Elt Ideal)) (x13 : (⟨S64x64, .f32⟩ : BufTy).Contents (Elt Ideal))
  (x14 : (⟨S64, .f32⟩ : BufTy).Contents (Elt Ideal)) (x15 : (⟨S4096x64, .f32⟩ : BufTy).Contents (Elt Ideal))
  (x16 : (⟨S4096, .f32⟩ : BufTy).Contents (Elt Ideal))

/-- The layer's arguments as the reference holds them: its own argument arrays, and for the pooled walk embedding
    the stage that computes it, kept closed. -/
abbrev args : Args :=
  ⟨x0, x1, val_main_v14 (F := Ideal) x0 x2 x3 x4, x5, x6, x7, x8, x9, x10, x11, x12, x13, x14, x15, x16⟩

local notation "𝒜" => args x0 x1 x2 x3 x4 x5 x6 x7 x8 x9 x10 x11 x12 x13 x14 x15 x16

/-- Two functions into a rank-2 index agree when their two coordinates have the same value. -/
local macro "idx2" : tactic =>
  `(tactic| exact funext fun a => Fin.ext (by match a with | ⟨0, _⟩ => rfl | ⟨1, _⟩ => rfl))
/-- The same for a rank-1 index. -/
local macro "idx1" : tactic =>
  `(tactic| exact funext fun a => Fin.ext (by match a with | ⟨0, _⟩ => rfl))

/-! ## The hidden layer -/

/-- The transposed first weight matrix at (k, h) is W1 at (h, k). -/
theorem w1T_at (k : Fin 4224) (h : Fin 2112) : val_main_v16 (F := Ideal) x5 (ix2 k h) = x5 (ix2 h k) :=
  (val_main_v16_apply x5 _).trans (congrArg x5 (by idx2))

/-- The first bias, broadcast to a row and down the rows, at (i, h). -/
theorem b1_at (i : Fin 4096) (h : Fin 2112) : val_main_v19 (F := Ideal) x6 (ix2 i h) = x6 (ix1 h) :=
  (val_main_v19_apply x6 _).trans ((val_main_v18_apply x6 _).trans (congrArg x6 (by idx1)))

/-- The joined row at a memory column. -/
theorem raw_mem (i : Fin 4096) (k : Fin 64) :
    val_main_v15 (F := Ideal) x0 x1 x2 x3 x4 (ix2 i (⟨k.val, by omega⟩ : Fin 4224)) = x0 (ix2 i k) :=
  Cert.BridgeRead.concat3_apply_fst x0 x1 (val_main_v14 (F := Ideal) x0 x2 x3 x4)
    concatenates_S4096x64_S4096x4096_S4096x64_S4096x4224_d1 i ⟨k.val, by omega⟩ k.isLt

/-- The joined row at an OD column. -/
theorem raw_od (i : Fin 4096) (k : Fin 4096) :
    val_main_v15 (F := Ideal) x0 x1 x2 x3 x4 (ix2 i (⟨64 + k.val, by omega⟩ : Fin 4224)) = x1 (ix2 i k) :=
  (Cert.BridgeRead.concat3_apply_snd x0 x1 (val_main_v14 (F := Ideal) x0 x2 x3 x4)
    concatenates_S4096x64_S4096x4096_S4096x64_S4096x4224_d1 i ⟨64 + k.val, by omega⟩
    (by show 64 ≤ 64 + k.val; omega) (by show 64 + k.val - 64 < 4096; omega)).trans
    (congrArg x1 (congrArg (ix2 i) (Fin.ext (by show 64 + k.val - 64 = k.val; omega))))

/-- The joined row at a walk-embedding column. -/
theorem raw_rw (i : Fin 4096) (k : Fin 64) :
    val_main_v15 (F := Ideal) x0 x1 x2 x3 x4 (ix2 i (⟨4160 + k.val, by omega⟩ : Fin 4224))
      = val_main_v14 (F := Ideal) x0 x2 x3 x4 (ix2 i k) :=
  (Cert.BridgeRead.concat3_apply_trd x0 x1 (val_main_v14 (F := Ideal) x0 x2 x3 x4)
    concatenates_S4096x64_S4096x4096_S4096x64_S4096x4224_d1 i ⟨4160 + k.val, by omega⟩
    (by show 64 + 4096 ≤ 4160 + k.val; omega) (by show 4160 + k.val - (64 + 4096) < 64; omega)).trans
    (congrArg (val_main_v14 (F := Ideal) x0 x2 x3 x4)
      (congrArg (ix2 i) (Fin.ext (by show 4160 + k.val - (64 + 4096) = k.val; omega))))

/-- The product of the joined row with the transposed first weight matrix, at (i, h). -/
theorem dot1_at (i : Fin 4096) (h : Fin 2112) :
    val_main_v17 (F := Ideal) x0 x1 x2 x3 x4 x5 (ix2 i h)
      = ∑ k : Fin 4224, val_main_v15 (F := Ideal) x0 x1 x2 x3 x4 (ix2 i k) * x5 (ix2 h k) :=
  (val_main_v17_apply x0 x1 x2 x3 x4 x5 _).trans (Finset.sum_congr rfl fun k _ =>
    congrArg₂ (· * ·) (congrArg (val_main_v15 (F := Ideal) x0 x1 x2 x3 x4) (by idx2))
      ((congrArg (val_main_v16 (F := Ideal) x5) (by idx2)).trans (w1T_at x5 k h)))

/-- The hidden pre-activation. -/
theorem pre_eq (i : Fin 4096) (h : Fin 2112) :
    val_main_v20 (F := Ideal) x0 x1 x2 x3 x4 x5 x6 (ix2 i h) = pre 𝒜 i h := by
  rw [val_main_v20_apply, Ideal.addf_def, dot1_at, b1_at, sum_4224_split]
  simp only [raw_mem, raw_od, raw_rw]
  rfl

/-- The zero the hidden layer's relu compares with, at any entry. -/
theorem zero1_at (j : S4096x2112.Idx) : val_main_call0_v0 (F := Ideal) j = zeroW :=
  (val_main_call0_v0_apply _).trans (val_main_call0_cst_apply _)

/-- The hidden layer. -/
theorem hidden_eq (i : Fin 4096) (h : Fin 2112) :
    val_main_v21 (F := Ideal) x0 x1 x2 x3 x4 x5 x6 (ix2 i h) = hidden 𝒜 i h := by
  rw [val_main_v21_apply, Ideal.maximumf_def, pre_eq, zero1_at]
  rfl

/-! ## The message -/

/-- The transposed second weight matrix at (h, j) is W2 at (j, h). -/
theorem w2T_at (h : Fin 2112) (j : Fin 64) : val_main_v22 (F := Ideal) x7 (ix2 h j) = x7 (ix2 j h) :=
  (val_main_v22_apply x7 _).trans (congrArg x7 (by idx2))

/-- The second bias at (i, j). -/
theorem b2_at (i : Fin 4096) (j : Fin 64) : val_main_v25 (F := Ideal) x8 (ix2 i j) = x8 (ix1 j) :=
  (val_main_v25_apply x8 _).trans ((val_main_v24_apply x8 _).trans (congrArg x8 (by idx1)))

/-- The message. -/
theorem msg_eq (i : Fin 4096) (j : Fin 64) :
    val_main_v26 (F := Ideal) x0 x1 x2 x3 x4 x5 x6 x7 x8 (ix2 i j) = msg 𝒜 i j := by
  rw [val_main_v26_apply, Ideal.addf_def, val_main_v23_apply, b2_at]
  refine congrArg (· + x8 (ix1 j)) (Finset.sum_congr rfl fun h _ => congrArg₂ (· * ·) ?_ ?_)
  · exact (congrArg (val_main_v21 (F := Ideal) x0 x1 x2 x3 x4 x5 x6) (by idx2)).trans (hidden_eq x0 x1 x2 x3 x4 x5 x6 x7 x8 x9 x10 x11 x12 x13 x14 x15 x16 i h)
  · exact (congrArg (val_main_v22 (F := Ideal) x7) (by idx2)).trans (w2T_at x7 h j)

/-! ## The gate pre-activations and their thirds -/

/-- The transposed input-side gate matrix at (j, g) is Wi at (g, j). -/
theorem wiT_at (j : Fin 64) (g : Fin 192) : val_main_v27 (F := Ideal) x9 (ix2 j g) = x9 (ix2 g j) :=
  (val_main_v27_apply x9 _).trans (congrArg x9 (by idx2))

/-- The input-side gate bias at (i, g). -/
theorem bi_at (i : Fin 4096) (g : Fin 192) : val_main_v30 (F := Ideal) x10 (ix2 i g) = x10 (ix1 g) :=
  (val_main_v30_apply x10 _).trans ((val_main_v29_apply x10 _).trans (congrArg x10 (by idx1)))

/-- The input-side gate pre-activations. -/
theorem gi_eq (i : Fin 4096) (g : Fin 192) :
    val_main_v31 (F := Ideal) x0 x1 x2 x3 x4 x5 x6 x7 x8 x9 x10 (ix2 i g) = gi 𝒜 i g := by
  rw [val_main_v31_apply, Ideal.addf_def, val_main_v28_apply, bi_at]
  refine congrArg (· + x10 (ix1 g)) (Finset.sum_congr rfl fun j _ => congrArg₂ (· * ·) ?_ ?_)
  · exact (congrArg (val_main_v26 (F := Ideal) x0 x1 x2 x3 x4 x5 x6 x7 x8) (by idx2)).trans (msg_eq x0 x1 x2 x3 x4 x5 x6 x7 x8 x9 x10 x11 x12 x13 x14 x15 x16 i j)
  · exact (congrArg (val_main_v27 (F := Ideal) x9) (by idx2)).trans (wiT_at x9 j g)

/-- The transposed memory-side gate matrix at (j, g) is Wh at (g, j). -/
theorem whT_at (j : Fin 64) (g : Fin 192) : val_main_v32 (F := Ideal) x11 (ix2 j g) = x11 (ix2 g j) :=
  (val_main_v32_apply x11 _).trans (congrArg x11 (by idx2))

/-- The memory-side gate bias at (i, g). -/
theorem bh_at (i : Fin 4096) (g : Fin 192) : val_main_v35 (F := Ideal) x12 (ix2 i g) = x12 (ix1 g) :=
  (val_main_v35_apply x12 _).trans ((val_main_v34_apply x12 _).trans (congrArg x12 (by idx1)))

/-- The memory-side gate pre-activations. -/
theorem gh_eq (i : Fin 4096) (g : Fin 192) :
    val_main_v36 (F := Ideal) x0 x11 x12 (ix2 i g) = gh 𝒜 i g := by
  rw [val_main_v36_apply, Ideal.addf_def, val_main_v33_apply, bh_at]
  refine congrArg (· + x12 (ix1 g)) (Finset.sum_congr rfl fun j _ => congrArg₂ (· * ·) ?_ ?_)
  · exact congrArg x0 (by idx2)
  · exact (congrArg (val_main_v32 (F := Ideal) x11) (by idx2)).trans (whT_at x11 j g)

/-- The reset third of the input-side pre-activations. -/
theorem gi_r (i : Fin 4096) (d : Fin 64) :
    val_main_v37 (F := Ideal) x0 x1 x2 x3 x4 x5 x6 x7 x8 x9 x10 (ix2 i d) = gi 𝒜 i ⟨d.val, by omega⟩ :=
  (val_main_v37_apply x0 x1 x2 x3 x4 x5 x6 x7 x8 x9 x10 _).trans
    ((congrArg (val_main_v31 (F := Ideal) x0 x1 x2 x3 x4 x5 x6 x7 x8 x9 x10) (by idx2)).trans (gi_eq x0 x1 x2 x3 x4 x5 x6 x7 x8 x9 x10 x11 x12 x13 x14 x15 x16 i _))

/-- The update third of the input-side pre-activations. -/
theorem gi_z (i : Fin 4096) (d : Fin 64) :
    val_main_v38 (F := Ideal) x0 x1 x2 x3 x4 x5 x6 x7 x8 x9 x10 (ix2 i d) = gi 𝒜 i ⟨64 + d.val, by omega⟩ :=
  (val_main_v38_apply x0 x1 x2 x3 x4 x5 x6 x7 x8 x9 x10 _).trans
    ((congrArg (val_main_v31 (F := Ideal) x0 x1 x2 x3 x4 x5 x6 x7 x8 x9 x10) (by idx2)).trans (gi_eq x0 x1 x2 x3 x4 x5 x6 x7 x8 x9 x10 x11 x12 x13 x14 x15 x16 i _))

/-- The candidate third of the input-side pre-activations. -/
theorem gi_n (i : Fin 4096) (d : Fin 64) :
    val_main_v39 (F := Ideal) x0 x1 x2 x3 x4 x5 x6 x7 x8 x9 x10 (ix2 i d) = gi 𝒜 i ⟨128 + d.val, by omega⟩ :=
  (val_main_v39_apply x0 x1 x2 x3 x4 x5 x6 x7 x8 x9 x10 _).trans
    ((congrArg (val_main_v31 (F := Ideal) x0 x1 x2 x3 x4 x5 x6 x7 x8 x9 x10) (by idx2)).trans (gi_eq x0 x1 x2 x3 x4 x5 x6 x7 x8 x9 x10 x11 x12 x13 x14 x15 x16 i _))

/-- The reset third of the memory-side pre-activations. -/
theorem gh_r (i : Fin 4096) (d : Fin 64) :
    val_main_v40 (F := Ideal) x0 x11 x12 (ix2 i d) = gh 𝒜 i ⟨d.val, by omega⟩ :=
  (val_main_v40_apply x0 x11 x12 _).trans
    ((congrArg (val_main_v36 (F := Ideal) x0 x11 x12) (by idx2)).trans (gh_eq x0 x1 x2 x3 x4 x5 x6 x7 x8 x9 x10 x11 x12 x13 x14 x15 x16 i _))

/-- The update third of the memory-side pre-activations. -/
theorem gh_z (i : Fin 4096) (d : Fin 64) :
    val_main_v41 (F := Ideal) x0 x11 x12 (ix2 i d) = gh 𝒜 i ⟨64 + d.val, by omega⟩ :=
  (val_main_v41_apply x0 x11 x12 _).trans
    ((congrArg (val_main_v36 (F := Ideal) x0 x11 x12) (by idx2)).trans (gh_eq x0 x1 x2 x3 x4 x5 x6 x7 x8 x9 x10 x11 x12 x13 x14 x15 x16 i _))

/-- The candidate third of the memory-side pre-activations. -/
theorem gh_n (i : Fin 4096) (d : Fin 64) :
    val_main_v42 (F := Ideal) x0 x11 x12 (ix2 i d) = gh 𝒜 i ⟨128 + d.val, by omega⟩ :=
  (val_main_v42_apply x0 x11 x12 _).trans
    ((congrArg (val_main_v36 (F := Ideal) x0 x11 x12) (by idx2)).trans (gh_eq x0 x1 x2 x3 x4 x5 x6 x7 x8 x9 x10 x11 x12 x13 x14 x15 x16 i _))

/-! ## The gates, the candidate and the updated memory -/

/-- The float one that the reset gate's quotient divides, as a real one. -/
theorem one48_at (j : S4096x64.Idx) : val_main_v48 (F := Ideal) j = 1 :=
  (val_main_v48_apply _).trans ((val_main_cst_3_apply _).trans Cert.HostRead.ofBits_one_f32)

/-- The float one in the reset gate's denominator, as a real one. -/
theorem one46_at (j : S4096x64.Idx) : val_main_v46 (F := Ideal) j = 1 :=
  (val_main_v46_apply _).trans ((val_main_cst_2_apply _).trans Cert.HostRead.ofBits_one_f32)

/-- The float one that the update gate's quotient divides, as a real one. -/
theorem one55_at (j : S4096x64.Idx) : val_main_v55 (F := Ideal) j = 1 :=
  (val_main_v55_apply _).trans ((val_main_cst_5_apply _).trans Cert.HostRead.ofBits_one_f32)

/-- The float one in the update gate's denominator, as a real one. -/
theorem one53_at (j : S4096x64.Idx) : val_main_v53 (F := Ideal) j = 1 :=
  (val_main_v53_apply _).trans ((val_main_cst_4_apply _).trans Cert.HostRead.ofBits_one_f32)

/-- The float one the update gate is subtracted from, kept as its word. -/
theorem one60_at (j : S4096x64.Idx) : val_main_v60 (F := Ideal) j = oneW :=
  (val_main_v60_apply _).trans (val_main_cst_6_apply _)

/-- The reset gate: 1 / (1 + exp (−x)) is the logistic function of x. -/
theorem rgate_eq (i : Fin 4096) (d : Fin 64) :
    val_main_v49 (F := Ideal) x0 x1 x2 x3 x4 x5 x6 x7 x8 x9 x10 x11 x12 (ix2 i d) = rgate 𝒜 i d := by
  rw [val_main_v49_apply, val_main_v47_apply, val_main_v45_apply, val_main_v44_apply, val_main_v43_apply,
    one48_at, one46_at, gi_r, gh_r]
  rfl

/-- The update gate. -/
theorem zgate_eq (i : Fin 4096) (d : Fin 64) :
    val_main_v56 (F := Ideal) x0 x1 x2 x3 x4 x5 x6 x7 x8 x9 x10 x11 x12 (ix2 i d) = zgate 𝒜 i d := by
  rw [val_main_v56_apply, val_main_v54_apply, val_main_v52_apply, val_main_v51_apply, val_main_v50_apply,
    one55_at, one53_at, gi_z, gh_z]
  rfl

/-- The candidate memory. -/
theorem cand_eq (i : Fin 4096) (d : Fin 64) :
    val_main_v59 (F := Ideal) x0 x1 x2 x3 x4 x5 x6 x7 x8 x9 x10 x11 x12 (ix2 i d) = cand 𝒜 i d := by
  rw [val_main_v59_apply, val_main_v58_apply, val_main_v57_apply, gi_n, rgate_eq, gh_n]
  rfl

/-- The updated memory. -/
theorem upd_eq (i : Fin 4096) (d : Fin 64) :
    val_main_v64 (F := Ideal) x0 x1 x2 x3 x4 x5 x6 x7 x8 x9 x10 x11 x12 (ix2 i d) = upd 𝒜 i d := by
  rw [val_main_v64_apply, val_main_v62_apply, val_main_v61_apply, val_main_v63_apply, one60_at, zgate_eq,
    cand_eq]
  rfl

/-! ## The prediction layer -/

/-- The transposed first prediction matrix at (d, e) is Wp1 at (e, d). -/
theorem wp1T_at (d e : Fin 64) : val_main_v65 (F := Ideal) x13 (ix2 d e) = x13 (ix2 e d) :=
  (val_main_v65_apply x13 _).trans (congrArg x13 (by idx2))

/-- The first prediction bias at (i, e). -/
theorem bp1_at (i : Fin 4096) (e : Fin 64) : val_main_v68 (F := Ideal) x14 (ix2 i e) = x14 (ix1 e) :=
  (val_main_v68_apply x14 _).trans ((val_main_v67_apply x14 _).trans (congrArg x14 (by idx1)))

/-- The zero the prediction layer's relu compares with, at any entry. -/
theorem zero2_at (j : S4096x64.Idx) : val_main_call1_v0 (F := Ideal) j = zeroW :=
  (val_main_call1_v0_apply _).trans (val_main_call1_cst_apply _)

/-- The prediction layer's hidden units. -/
theorem pred_eq (i : Fin 4096) (e : Fin 64) :
    val_main_v70 (F := Ideal) x0 x1 x2 x3 x4 x5 x6 x7 x8 x9 x10 x11 x12 x13 x14 (ix2 i e) = pred 𝒜 i e := by
  rw [val_main_v70_apply, Ideal.maximumf_def, val_main_v69_apply, Ideal.addf_def, val_main_v66_apply, bp1_at,
    zero2_at]
  refine congrArg (fun s => max (s + x14 (ix1 e)) zeroW)
    (Finset.sum_congr rfl fun d _ => congrArg₂ (· * ·) ?_ ?_)
  · exact (congrArg (val_main_v64 (F := Ideal) x0 x1 x2 x3 x4 x5 x6 x7 x8 x9 x10 x11 x12) (by idx2)).trans (upd_eq x0 x1 x2 x3 x4 x5 x6 x7 x8 x9 x10 x11 x12 x13 x14 x15 x16 i d)
  · exact (congrArg (val_main_v65 (F := Ideal) x13) (by idx2)).trans (wp1T_at x13 d e)

/-- The transposed second prediction matrix at (e, j) is Wp2 at (j, e). -/
theorem wp2T_at (e : Fin 64) (j : Fin 4096) : val_main_v71 (F := Ideal) x15 (ix2 e j) = x15 (ix2 j e) :=
  (val_main_v71_apply x15 _).trans (congrArg x15 (by idx2))

/-- The second prediction bias at (i, j). -/
theorem bp2_at (i j : Fin 4096) : val_main_v74 (F := Ideal) x16 (ix2 i j) = x16 (ix1 j) :=
  (val_main_v74_apply x16 _).trans ((val_main_v73_apply x16 _).trans (congrArg x16 (by idx1)))

/-- The result at (i, j). -/
theorem out_eq (i j : Fin 4096) :
    val_main_v75 (F := Ideal) x0 x1 x2 x3 x4 x5 x6 x7 x8 x9 x10 x11 x12 x13 x14 x15 x16 (ix2 i j) = out 𝒜 i j := by
  rw [val_main_v75_apply, Ideal.addf_def, val_main_v72_apply, bp2_at]
  refine congrArg (· + x16 (ix1 j)) (Finset.sum_congr rfl fun e _ => congrArg₂ (· * ·) ?_ ?_)
  · exact (congrArg (val_main_v70 (F := Ideal) x0 x1 x2 x3 x4 x5 x6 x7 x8 x9 x10 x11 x12 x13 x14) (by idx2)).trans (pred_eq x0 x1 x2 x3 x4 x5 x6 x7 x8 x9 x10 x11 x12 x13 x14 x15 x16 i e)
  · exact (congrArg (val_main_v71 (F := Ideal) x15) (by idx2)).trans (wp2T_at x15 e j)

/-- The reference's result is the specification of the layer, as one function of the reference's arguments. -/
theorem ref_eq :
    val_main_v75 (F := Ideal) x0 x1 x2 x3 x4 x5 x6 x7 x8 x9 x10 x11 x12 x13 x14 x15 x16
      = Cert.Layer.G ⟨x0, x1, val_main_v14 (F := Ideal) x0 x2 x3 x4, x5, x6, x7, x8, x9, x10, x11, x12, x13, x14,
          x15, x16⟩ := by
  funext idx
  obtain ⟨i, j, rfl⟩ : ∃ (i j : Fin 4096), idx = ix2 i j := ⟨idx 0, idx 1, eq_ix2 idx⟩
  exact out_eq x0 x1 x2 x3 x4 x5 x6 x7 x8 x9 x10 x11 x12 x13 x14 x15 x16 i j

end Cert.Layer.Ref

end
-- ==== Proof.lean ====
/-
  The kernel computes one round of message passing over 4096 nodes — pooled walk embedding, a two-layer message MLP
  over the raw row (memory | OD row | walk embedding), a gated memory update, a two-layer prediction MLP — in 32 row
  blocks of 128 nodes, with the first weight matrix cut into its three stretches of columns, every weight transposed
  on the host, and the hidden axis of width 2112 continued by zeros to 2176. The reference computes the same layer
  with one product over the concatenated raw row. On the extended reals the two results are one function of the
  argument arrays, entry by entry (`Cert.Layer.G`):

  * the kernel side: what each grid point writes back is the body's arithmetic at an entry on the staged rows
    (`Cert.Layer.Body.body_apply`), the staged weight arrays are the arguments transposed and zero-continued
    (`Cert.Layer.Host`), a sum of products against a zero-continued row is the sum over its own entries, and the 32
    blocks tile the rows (`Cert.Layer.Blocks.run`);
  * the reference side: its operations read one at a time, the sum over the 4224 raw columns cut into the three
    stretches, the logistic function spelt 1 / (1 + e^(−x)) being the logistic function (`Cert.Layer.Ref.ref_eq`);
  * both programs compute the pooled walk embedding on the host by the same operations of the same arguments.

  No law used needs a finite operand (re-grouping of finite sums and x · 0 = 0 only), so the precondition is not opened.
  No rewrite separates the kernel from its idealization: the idealized kernel is the kernel itself read at the exact values.
-/
import proofs.«174440_j58033598104174_2_alg».proof.Defs
import proofs.«174440_j58033598104174_2_alg».proof.Proof.Gen.Kernel
import proofs.«174440_j58033598104174_2_alg».proof.Proof.Gen.Kernel.Frame
import proofs.«174440_j58033598104174_2_alg».proof.Proof.Gen.KernelIdeal
import proofs.«174440_j58033598104174_2_alg».proof.Proof.Gen.KernelIdeal.Frame
import proofs.«174440_j58033598104174_2_alg».proof.Proof.Gen.KernelIdeal.Value
import proofs.«174440_j58033598104174_2_alg».proof.Proof.Gen.ReferenceIdeal
import proofs.«174440_j58033598104174_2_alg».proof.Proof.Gen.ReferenceIdeal.Run
import proofs.«174440_j58033598104174_2_alg».proof.Proof.Gen.ReferenceIdeal.Read
import proofs.«174440_j58033598104174_2_alg».proof.Proof.Gen.Pre_finite_inputs
import proofs.«174440_j58033598104174_2_alg».proof.Proof.Blocks
import proofs.«174440_j58033598104174_2_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a list of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was recorded between the kernel and its idealization. -/
theorem preserves : Cert.preserves_Kernel_KernelIdeal := trivial

/-- From memories that agree on the arguments both programs end with the layer's result of those arguments. -/
theorem algebraic : Cert.algebraic_KernelIdeal_ReferenceIdeal := by
  intro m ρ m' ρ' _ hagree
  refine ⟨fun c => Cert.Layer.G (Cert.Layer.kargs m c), Cert.Layer.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v75_eq, Cert.Layer.Ref.ref_eq, a0, a1, a2, a3, a4, a5, a6, a7, a8, a9, a10, a11, a12, a13, a14, a15, a16]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
